-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x32 : Shape := ⟨2, ![128, 32]⟩
abbrev S32 : Shape := ⟨1, ![32]⟩
abbrev S96x32 : Shape := ⟨2, ![96, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S96x32 : S_.BroadcastsInDim S96x32 (![] : Fin 0 → Fin S96x32.rank)
  reducesTo_S96x32_S_d0_1 : S96x32.ReducesTo [0, 1] S_

variable [Facts]

def fn_part2 {F : FTy → Type} [FloatOps F] (main_arg9 : FVec F S96x32 .f32) (main_arg10 : FVec F S32 .f32) (main_v33 : IVec S_ 1) : IVec S_ 1 :=
  let main_v34 : FVec F S96x32 .f32 := Host.absf main_arg9
  let main_cst_12 : FVec F S_ .f32 := constant S_ .f32 0x7F800000#32
  let main_v35 : FVec F S96x32 .f32 := broadcastInDim S96x32 ![] bcast_S_S96x32 main_cst_12
  let main_v36 : IVec S96x32 1 := cmpf .olt main_v34 main_v35
  let main_c_13 : IVec S_ 1 := constantI S_ 1 1#1
  let main_v37 : IVec S_ 1 := (fun x v => Host.reduce IntOp.andi x v reducesTo_S96x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S32 .f32) (main_arg7 : FVec F S96x32 .f32) (main_arg8 : FVec F S32 .f32) (main_arg9 : FVec F S96x32 .f32) (main_arg10 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S96x32 .f32 := Host.absf main_arg7
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S2x1600000 32) (main_arg3 : FVec F S128x32 .f32) (main_arg4 : FVec F S32 .f32) (main_arg5 : FVec F S128x32 .f32) (main_arg6 : FVec F S32 .f32) (main_arg7 : FVec F S96x32 .f32) (main_arg8 : FVec F S32 .f32) (main_arg9 : FVec F S96x32 .f32) (main_arg10 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S128x32 : Shape := ⟨2, ![128, 32]⟩
abbrev S32 : Shape := ⟨1, ![32]⟩
abbrev S96x32 : Shape := ⟨2, ![96, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x32 : Shape := ⟨2, ![1, 32]⟩
abbrev S4000x64 : Shape := ⟨2, ![4000, 64]⟩
abbrev S4000x1 : Shape := ⟨2, ![4000, 1]⟩
abbrev S64x32 : Shape := ⟨2, ![64, 32]⟩
abbrev S4000x32 : Shape := ⟨2, ![4000, 32]⟩
abbrev S32x32 : Shape := ⟨2, ![32, 32]⟩

abbrev nBuf : Space → Nat
  | .hbm => 115
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x1600000, .i32⟩
  | .hbm, ⟨3, _⟩ => ⟨S128x32, .f32⟩
  | .hbm, ⟨4, _⟩ => ⟨S32, .f32⟩
  | .hbm, ⟨5, _⟩ => ⟨S128x32, .f32⟩
  | .hbm, ⟨6, _⟩ => ⟨S32, .f32⟩
  | .hbm, ⟨7, _⟩ => ⟨S96x32, .f32⟩
  | .hbm, ⟨8, _⟩ => ⟨S32, .f32⟩
  | .hbm, ⟨9, _⟩ => ⟨S96x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S100000x1, .f32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S_, .f32⟩
  | .hbm, ⟨39, _⟩ => ⟨S100000x1, .f32⟩
  | .hbm, ⟨40, _⟩ => ⟨S100000x1, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x1600000, .i32⟩
  | .hbm, ⟨59, _⟩ => ⟨S1600000, .i32⟩
  | .hbm, ⟨60, _⟩ => ⟨S1x1600000, .i32⟩
  | .hbm, ⟨61, _⟩ => ⟨S1600000, .i32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x32, .f32⟩
  | .hbm, ⟨76, _⟩ => ⟨S1x32, .f32⟩
  | .hbm, ⟨77, _⟩ => ⟨S100000x64, .f32⟩
  | .hbm, ⟨78, _⟩ => ⟨S1x1600000, .i32⟩
  | .hbm, ⟨79, _⟩ => ⟨S1600000, .i32⟩
  | .hbm, ⟨80, _⟩ => ⟨S1x1600000, .i32⟩
  | .hbm, ⟨81, _⟩ => ⟨S1600000, .i32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S1x1600000, .i32⟩
  | .hbm, ⟨96, _⟩ => ⟨S1600000, .i32⟩
  | .hbm, ⟨97, _⟩ => ⟨S1x1600000, .i32⟩
  | .hbm, ⟨98, _⟩ => ⟨S1600000, .i32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x64, .f32⟩
  | .hbm, ⟨108, _⟩ => ⟨S_, .f32⟩
  | .hbm, ⟨109, _⟩ => ⟨S100000x64, .f32⟩
  | .hbm, ⟨110, _⟩ => ⟨S1600000x1, .i32⟩
  | .hbm, ⟨111, _⟩ => ⟨S100000x64, .f32⟩
  | .hbm, ⟨112, _⟩ => ⟨S1x32, .f32⟩
  | .hbm, ⟨113, _⟩ => ⟨S1x32, .f32⟩
  | .hbm, ⟨114, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S128x32, .f32⟩
  | .local _ .vmem, ⟨11, _⟩ => ⟨S1x32, .f32⟩
  | .local _ .vmem, ⟨12, _⟩ => ⟨S128x32, .f32⟩
  | .local _ .vmem, ⟨13, _⟩ => ⟨S1x32, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x1, .f32⟩
  | .local _ .vmem, ⟨23, _⟩ => ⟨S4000x1, .f32⟩
  | .local _ .vmem, ⟨24, _⟩ => ⟨S4000x1, .f32⟩
  | .local _ .vmem, ⟨25, _⟩ => ⟨S4000x1, .f32⟩
  | .local _ .vmem, ⟨26, _⟩ => ⟨S96x32, .f32⟩
  | .local _ .vmem, ⟨27, _⟩ => ⟨S1x32, .f32⟩
  | .local _ .vmem, ⟨28, _⟩ => ⟨S96x32, .f32⟩
  | .local _ .vmem, ⟨29, _⟩ => ⟨S1x32, .f32⟩
  | .local _ .vmem, ⟨30, _⟩ => ⟨S4000x64, .f32⟩
  | .local _ .vmem, ⟨31, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S96x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x1 : S_.BroadcastsInDim S100000x1 (![] : Fin 0 → Fin S100000x1.rank)
  slices_S2x1600000_S1x1600000_0_0 : S2x1600000.Slices ![0, 0] S1x1600000
  bcast_S_S100000x64 : S_.BroadcastsInDim S100000x64 (![] : Fin 0 → Fin S100000x64.rank)
  shapeCasts_S32_S1x32 : S32.ShapeCasts S1x32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S128x32_S64x32_0_0 : ∀ a, (![0, 0] : Fin 2 → Nat) a + S64x32.size a ≤ S128x32.size a
  h_S64x32 : 0 < S64x32.numel
  inb_S128x32_S64x32_64_0 : ∀ a, (![64, 0] : Fin 2 → Nat) a + S64x32.size a ≤ S128x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  concatenates_S4000x32_S4000x32_S4000x64_d1 : Shape.Concatenates [S4000x32, S4000x32] S4000x64 1
  inb_S4000x64_S4000x32_0_0 : ∀ a, (![0, 0] : Fin 2 → Nat) a + S4000x32.size a ≤ S4000x64.size a
  h_S4000x32 : 0 < S4000x32.numel
  shapeCasts_S4000x32_S4000x32 : S4000x32.ShapeCasts S4000x32
  broadcasts_S4000x1_S4000x32 : S4000x1.Broadcasts S4000x32
  inb_S4000x64_S4000x32_0_32 : ∀ a, (![0, 32] : Fin 2 → Nat) a + S4000x32.size a ≤ S4000x64.size a
  inb_S96x32_S32x32_0_0 : ∀ a, (![0, 0] : Fin 2 → Nat) a + S32x32.size a ≤ S96x32.size a
  h_S32x32 : 0 < S32x32.numel
  inb_S96x32_S32x32_32_0 : ∀ a, (![32, 0] : Fin 2 → Nat) a + S32x32.size a ≤ S96x32.size a
  inb_S96x32_S32x32_64_0 : ∀ a, (![64, 0] : Fin 2 → Nat) a + S32x32.size a ≤ S96x32.size a
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x32_S4000x32_1_0_0_1_n_n_wf : DotDims.WF S4000x64 S64x32 S4000x32 [1] [0] [0] [1] [] []
  dot_S4000x32_S32x32_S4000x32_1_0_0_1_n_n_wf : DotDims.WF S4000x32 S32x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S128x32.size a
  hwx0_7 : ∀ i : grid0.Coords, EltTy.bits .f32 = 32 ∨ (Rect.block (s := S128x32) S128x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S100000x64.size a
  hwx0_9 : ∀ i : grid0.Coords, EltTy.bits .f32 = 32 ∨ (Rect.block (s := S100000x64) S4000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x32.size a ≤ S96x32.size a
  hwx1_5 : ∀ i : grid1.Coords, EltTy.bits .f32 = 32 ∨ (Rect.block (s := S96x32) S96x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x32.size a ≤ S96x32.size a
  hwx1_7 : ∀ i : grid1.Coords, EltTy.bits .f32 = 32 ∨ (Rect.block (s := S96x32) S96x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x64.size a ≤ S100000x64.size a
  hwx1_9 : ∀ i : grid1.Coords, EltTy.bits .f32 = 32 ∨ (Rect.block (s := S100000x64) S4000x64.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf

abbrev win0_0 : Pipeline.Window sig grid0 :=
  Pipeline.Window.ofSpec (Memref.whole main_v35) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v66) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S96x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v81) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S96x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v82) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v83) S4000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x32 : Shape := ⟨2, ![128, 32]⟩
abbrev S32 : Shape := ⟨1, ![32]⟩
abbrev S96x32 : Shape := ⟨2, ![96, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S100000x32 : Shape := ⟨2, ![100000, 32]⟩
abbrev S1x32 : Shape := ⟨2, ![1, 32]⟩
abbrev S1600000x32 : Shape := ⟨2, ![1600000, 32]⟩
abbrev S100000x96 : Shape := ⟨2, ![100000, 96]⟩

abbrev nBuf : Space → Nat
  | .hbm => 211
  | .vmem => 0
  | .smem => 0
  | _ => 0

abbrev hbmTy0_0 (i : Nat) : BufTy := match i % 128 with
  | 0 => ⟨S100000x64, .f32⟩
  | 1 => ⟨S2x1600000, .i32⟩
  | 2 => ⟨S2x1600000, .i32⟩
  | 3 => ⟨S128x32, .f32⟩
  | 4 => ⟨S32, .f32⟩
  | 5 => ⟨S128x32, .f32⟩
  | 6 => ⟨S32, .f32⟩
  | 7 => ⟨S96x32, .f32⟩
  | 8 => ⟨S32, .f32⟩
  | 9 => ⟨S96x32, .f32⟩
  | 10 => ⟨S32, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S100000x128, .f32⟩
  | 41 => ⟨S100000x32, .f32⟩
  | 42 => ⟨S1x32, .f32⟩
  | 43 => ⟨S100000x32, .f32⟩
  | 44 => ⟨S100000x32, .f32⟩
  | 45 => ⟨S1x1600000, .i32⟩
  | 46 => ⟨S1600000, .i32⟩
  | 47 => ⟨S1x1600000, .i32⟩
  | 48 => ⟨S1600000, .i32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x64, .f32⟩
  | 73 => ⟨S100000x64, .f32⟩
  | 74 => ⟨S100000x128, .f32⟩
  | 75 => ⟨S100000x32, .f32⟩
  | 76 => ⟨S1x32, .f32⟩
  | 77 => ⟨S100000x32, .f32⟩
  | 78 => ⟨S100000x32, .f32⟩
  | 79 => ⟨S100000x64, .f32⟩
  | 80 => ⟨S100000x64, .f32⟩
  | 81 => ⟨S100000x32, .f32⟩
  | 82 => ⟨S100000x32, .f32⟩
  | 83 => ⟨S1x1600000, .i32⟩
  | 84 => ⟨S1600000, .i32⟩
  | 85 => ⟨S1x1600000, .i32⟩
  | 86 => ⟨S1600000, .i32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x32, .f32⟩
  | 96 => ⟨S_, .f32⟩
  | 97 => ⟨S100000x32, .f32⟩
  | 98 => ⟨S1600000x1, .i32⟩
  | 99 => ⟨S100000x32, .f32⟩
  | 100 => ⟨S_, .f32⟩
  | 101 => ⟨S1600000, .f32⟩
  | 102 => ⟨S_, .f32⟩
  | 103 => ⟨S100000, .f32⟩
  | 104 => ⟨S1600000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x32, .f32⟩
  | 111 => ⟨S100000x32, .f32⟩
  | 112 => ⟨S1x1600000, .i32⟩
  | 113 => ⟨S1600000, .i32⟩
  | 114 => ⟨S1x1600000, .i32⟩
  | 115 => ⟨S1600000, .i32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x32, .f32⟩
  | 125 => ⟨S_, .f32⟩
  | 126 => ⟨S100000x32, .f32⟩
  | 127 => ⟨S1600000x1, .i32⟩
  | _ => ⟨S100000x64, .f32⟩

abbrev hbmTy0_1 (i : Nat) : BufTy := match i % 128 with
  | 0 => ⟨S100000x32, .f32⟩
  | 1 => ⟨S_, .f32⟩
  | 2 => ⟨S1600000, .f32⟩
  | 3 => ⟨S_, .f32⟩
  | 4 => ⟨S100000, .f32⟩
  | 5 => ⟨S1600000x1, .i32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x32, .f32⟩
  | 12 => ⟨S100000x32, .f32⟩
  | 13 => ⟨S100000x96, .f32⟩
  | 14 => ⟨S100000x32, .f32⟩
  | 15 => ⟨S1x32, .f32⟩
  | 16 => ⟨S100000x32, .f32⟩
  | 17 => ⟨S100000x32, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S_, .f32⟩
  | 32 => ⟨S100000x32, .f32⟩
  | 33 => ⟨S1600000x1, .i32⟩
  | 34 => ⟨S100000x32, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x32, .f32⟩
  | 46 => ⟨S100000x32, .f32⟩
  | 47 => ⟨S1x1600000, .i32⟩
  | 48 => ⟨S1600000, .i32⟩
  | 49 => ⟨S1x1600000, .i32⟩
  | 50 => ⟨S1600000, .i32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S_, .f32⟩
  | 61 => ⟨S100000x32, .f32⟩
  | 62 => ⟨S1600000x1, .i32⟩
  | 63 => ⟨S100000x32, .f32⟩
  | 64 => ⟨S_, .f32⟩
  | 65 => ⟨S1600000, .f32⟩
  | 66 => ⟨S_, .f32⟩
  | 67 => ⟨S100000, .f32⟩
  | 68 => ⟨S1600000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x32, .f32⟩
  | 75 => ⟨S100000x32, .f32⟩
  | 76 => ⟨S100000x96, .f32⟩
  | 77 => ⟨S100000x32, .f32⟩
  | 78 => ⟨S1x32, .f32⟩
  | 79 => ⟨S100000x32, .f32⟩
  | 80 => ⟨S100000x32, .f32⟩
  | 81 => ⟨S100000x64, .f32⟩
  | 82 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_16 : Ref sig .tc := ⟨.hbm, 116, rfl⟩
abbrev main_v87 : Ref sig .tc := ⟨.hbm, 117, rfl⟩
abbrev main_v88 : Ref sig .tc := ⟨.hbm, 118, rfl⟩
abbrev main_c_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_22 : Ref sig .tc := ⟨.hbm, 150, rfl⟩
abbrev main_v115 : Ref sig .tc := ⟨.hbm, 151, rfl⟩
abbrev main_v116 : Ref sig .tc := ⟨.hbm, 152, rfl⟩
abbrev main_c_23 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_24 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_25 : Ref sig .tc := ⟨.hbm, 163, rfl⟩
abbrev main_v125 : Ref sig .tc := ⟨.hbm, 164, rfl⟩
abbrev main_cst_26 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_27 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_c_28 : Ref sig .tc := ⟨.hbm, 179, rfl⟩
abbrev main_v138 : Ref sig .tc := ⟨.hbm, 180, rfl⟩
abbrev main_v139 : Ref sig .tc := ⟨.hbm, 181, rfl⟩
abbrev main_c_29 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_30 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_31 : Ref sig .tc := ⟨.hbm, 192, rfl⟩
abbrev main_v148 : Ref sig .tc := ⟨.hbm, 193, rfl⟩
abbrev main_cst_32 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_33 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  slices_S100000x64_S100000x32_0_0 : S100000x64.Slices ![0, 0] S100000x32
  slices_S100000x64_S100000x32_0_32 : S100000x64.Slices ![0, 32] S100000x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  concatenates_S100000x32_S100000x32_S100000x32_S100000x96_d1 : Shape.Concatenates [S100000x32, S100000x32, S100000x32] S100000x96 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x96_S96x32_S100000x32_1_0_0_1_n_n_wf : DotDims.WF S100000x96 S96x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x96_S96x32_S100000x32_1_0_0_1_n_n : DotDims S100000x96 S96x32 S100000x32 where
  lhsContracting := [1]
  rhsContracting := [0]
  lhsNonContracting := [0]
  rhsNonContracting := [1]
  lhsBatch := []
  rhsBatch := []
  wf := dot_S100000x96_S96x32_S100000x32_1_0_0_1_n_n_wf

class Facts : Prop extends Facts₀ where

variable [Facts]
-- ==== Proof.KRun.lean ====
/-
  The idealized kernel program's run with its result named.

  The program is four segments: host operations, the first kernel over its 25 blocks, host operations, the second
  kernel over its 25 blocks. Every weakly fair execution ends with each unscoped buffer at the contents the fold of
  the four segments leaves (`Gen.W4`); read at the result buffer that is the second kernel's output array, and at an
  argument the launch contents.
-/
import proofs.«112820_j33543694581992_2_alg».proof.Proof.Gen.KernelIdeal.Frame

set_option maxRecDepth 16384

noncomputable section

namespace Cert.Sgcn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the fold's
    final contents and every argument as launched. -/
theorem run_named : θ_run defs (onTc (τ := τ) (main (F := F))) ⟨m, fun _ => 0, ρ⟩ (fun r => ∀ c : Dev nD,
      r.2.mem ((c.tc : Thread nD τ).loc main_v83) = W4 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v83 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.Sgcn.Ker

end
-- ==== Proof.Spec.lean ====
/-
  What both programs compute, index by index, over the extended reals.

  A signed graph convolution in two layers over N = 100000 nodes and two lists of M = 1600000 directed edges
  (the positive and the negative ones). An edge list is given here by two integer columns: the row of the
  feature table each edge reads (its source, read signed and clamped into the table) and the node each edge
  adds into (its target, read signed; an edge whose target is no node adds nowhere).

  * `edgeSum s d T v k`  : the sum, over the edges whose target is `v`, of entry `k` of the table row the edge reads.
  * `inDeg d v`          : the number of edges whose target is `v`, as a sum of ones.
  * `mean S c`           : `S / max c 1`, the mean over the incoming edges (a node with no incoming edge divides by 1).
  * layer 1, one half    : `[mean-aggregated features | own features] · W + b` with `W : 128 × 32`, the
                           contraction over 128 written as its two halves of 64.
  * layer 2, one half    : `[mean over one list of 32 columns of z | mean over the other list of 32 columns of z |
                           32 columns of z] · W + b` with `W : 96 × 32`, the contraction written as its three thirds.
  * each layer's output  : `tanh` of the two halves side by side (columns 0..31 and 32..63).
-/
import Idealize.ShloMosaic.PureOps.Ideal
import Idealize.ShloMosaic.Lib.ValueIdx

noncomputable section

open scoped BigOperators

namespace Cert.Sgcn

open Idealize.ShloMosaic Idealize.ShloMosaic.ValueIdx

/-- The float literal 1.0 and the float literal 0.0, as the programs spell them. -/
abbrev one32 : EReal := Ideal.ofBits .f32 0x3F800000#32
abbrev zero32 : EReal := Ideal.ofBits .f32 0x00000000#32

/-- The table row edge `e` reads: its source number read signed, clamped into `[0, 99999]`. -/
def srcRow (s : IVec ⟨2, ![1600000, 1]⟩ 32) (e : Fin 1600000) : Fin 100000 :=
  ⟨min (s (ix2 e 0)).toInt.toNat (100000 - 1), by omega⟩

/-- The edges whose target, read signed, is node `v`. -/
def into (d : IVec ⟨2, ![1600000, 1]⟩ 32) (v : Fin 100000) : Finset (Fin 1600000) :=
  Finset.univ.filter (fun e : Fin 1600000 => (d (ix2 e 0)).toInt = (v.val : Int))

/-- Entry `k` of the rows of `T` read by the edges into `v`, summed (from the literal zero). -/
def edgeSum {D : Nat} (s d : IVec ⟨2, ![1600000, 1]⟩ 32) (T : (⟨2, ![100000, D]⟩ : Shape).Idx → EReal)
    (v : Fin 100000) (k : Fin D) : EReal :=
  zero32 + ∑ e ∈ into d v, T (ix2 (srcRow s e) k)

/-- The number of edges into `v`: a sum of ones (from the literal zero). -/
def inDeg (d : IVec ⟨2, ![1600000, 1]⟩ 32) (v : Fin 100000) : EReal :=
  zero32 + ∑ _e ∈ into d v, one32

/-- A sum over incoming edges divided by their number, or by one when there is none. -/
def mean (S c : EReal) : EReal := Ideal.div S (max c one32)

/-- One half (32 output columns) of layer 1 at node `r`: the mean-aggregated row against the top 64 rows of `W`,
    the node's own row against the bottom 64, plus the bias. -/
def half1 (R X : Fin 100000 → Fin 64 → EReal) (c : Fin 100000 → EReal)
    (W : (⟨2, ![128, 32]⟩ : Shape).Idx → EReal) (B : (⟨1, ![32]⟩ : Shape).Idx → EReal)
    (r : Fin 100000) (j : Fin 32) : EReal :=
  (∑ k : Fin 64, mean (R r k) (c r) * W (ix2 (⟨k.val, by omega⟩ : Fin 128) j)
    + ∑ k : Fin 64, X r k * W (ix2 (⟨64 + k.val, by omega⟩ : Fin 128) j)) + B (ix1 j)

/-- Layer 1 at node `r`, column `q`: `tanh` of the balanced half (columns 0..31, over the positive edges) or the
    unbalanced half (columns 32..63, over the negative edges). -/
def layer1 (RP RN X : Fin 100000 → Fin 64 → EReal) (cP cN : Fin 100000 → EReal)
    (W1b : (⟨2, ![128, 32]⟩ : Shape).Idx → EReal) (B1b : (⟨1, ![32]⟩ : Shape).Idx → EReal)
    (W1u : (⟨2, ![128, 32]⟩ : Shape).Idx → EReal) (B1u : (⟨1, ![32]⟩ : Shape).Idx → EReal)
    (r : Fin 100000) (q : Fin 64) : EReal :=
  Ideal.tanh (if h : q.val < 32 then half1 RP X cP W1b B1b r ⟨q.val, h⟩
    else half1 RN X cN W1u B1u r ⟨q.val - 32, by omega⟩)

/-- Column `k` of the left 32 columns, and of the right 32 columns, of a 64-wide row. -/
def lo (k : Fin 32) : Fin 64 := ⟨k.val, by omega⟩
def hi (k : Fin 32) : Fin 64 := ⟨32 + k.val, by omega⟩

/-- One half of layer 2 at node `r`: columns `ca` of the sums over the positive edges (mean by `cP`) against rows
    0..31 of `W`, columns `cb` of the sums over the negative edges (mean by `cN`) against rows 32..63, columns `cz` of
    the node's own row of `Z` against rows 64..95, plus the bias. -/
def half2 (SP SN Z : Fin 100000 → Fin 64 → EReal) (cP cN : Fin 100000 → EReal) (ca cb cz : Fin 32 → Fin 64)
    (W : (⟨2, ![96, 32]⟩ : Shape).Idx → EReal) (B : (⟨1, ![32]⟩ : Shape).Idx → EReal)
    (r : Fin 100000) (j : Fin 32) : EReal :=
  ((∑ k : Fin 32, mean (SP r (ca k)) (cP r) * W (ix2 (⟨k.val, by omega⟩ : Fin 96) j)
    + ∑ k : Fin 32, mean (SN r (cb k)) (cN r) * W (ix2 (⟨32 + k.val, by omega⟩ : Fin 96) j))
    + ∑ k : Fin 32, Z r (cz k) * W (ix2 (⟨64 + k.val, by omega⟩ : Fin 96) j)) + B (ix1 j)

/-- Layer 2 at node `r`, column `q`. The balanced half takes the left columns over the positive edges, the right
    columns over the negative edges and the node's left columns; the unbalanced half the other way round. -/
def layer2 (SP SN Z : Fin 100000 → Fin 64 → EReal) (cP cN : Fin 100000 → EReal)
    (W2b : (⟨2, ![96, 32]⟩ : Shape).Idx → EReal) (B2b : (⟨1, ![32]⟩ : Shape).Idx → EReal)
    (W2u : (⟨2, ![96, 32]⟩ : Shape).Idx → EReal) (B2u : (⟨1, ![32]⟩ : Shape).Idx → EReal)
    (r : Fin 100000) (q : Fin 64) : EReal :=
  Ideal.tanh (if h : q.val < 32 then half2 SP SN Z cP cN lo hi lo W2b B2b r ⟨q.val, h⟩
    else half2 SP SN Z cP cN hi lo hi W2u B2u r ⟨q.val - 32, by omega⟩)

/-- Layer 1's output as an array of the node features and the two edge lists. -/
def hidden (x : (⟨2, ![100000, 64]⟩ : Shape).Idx → EReal) (sP dP sN dN : IVec ⟨2, ![1600000, 1]⟩ 32)
    (W1b : (⟨2, ![128, 32]⟩ : Shape).Idx → EReal) (B1b : (⟨1, ![32]⟩ : Shape).Idx → EReal)
    (W1u : (⟨2, ![128, 32]⟩ : Shape).Idx → EReal) (B1u : (⟨1, ![32]⟩ : Shape).Idx → EReal) :
    (⟨2, ![100000, 64]⟩ : Shape).Idx → EReal := fun i =>
  layer1 (edgeSum sP dP x) (edgeSum sN dN x) (fun r k => x (ix2 r k)) (inDeg dP) (inDeg dN) W1b B1b W1u B1u (i 0) (i 1)

/-- Layer 2's output as an array of a hidden array `z` and the two edge lists. -/
def output (z : (⟨2, ![100000, 64]⟩ : Shape).Idx → EReal) (sP dP sN dN : IVec ⟨2, ![1600000, 1]⟩ 32)
    (W2b : (⟨2, ![96, 32]⟩ : Shape).Idx → EReal) (B2b : (⟨1, ![32]⟩ : Shape).Idx → EReal)
    (W2u : (⟨2, ![96, 32]⟩ : Shape).Idx → EReal) (B2u : (⟨1, ![32]⟩ : Shape).Idx → EReal) :
    (⟨2, ![100000, 64]⟩ : Shape).Idx → EReal := fun i =>
  layer2 (edgeSum sP dP z) (edgeSum sN dN z) (fun r k => z (ix2 r k)) (inDeg dP) (inDeg dN) W2b B2b W2u B2u (i 0) (i 1)

end Cert.Sgcn

end
-- ==== Proof.BlockSpec.lean ====
/-
  The two layers as one grid point sees them: a block of 4000 consecutive nodes.

  Inside a block the mean is spelt as the kernel spells it, a product with the reciprocal `I` of the clamped count
  (an `[4000, 1]` column), and the bias is a `[1, 32]` row. `blockLayer1` and `blockLayer2` are the `tanh` of the two
  halves side by side, as in `Cert.Sgcn.layer1` and `layer2`.
-/
import proofs.«112820_j33543694581992_2_alg».proof.Proof.Spec

noncomputable section

open scoped BigOperators

namespace Cert.Sgcn

open Idealize.ShloMosaic Idealize.ShloMosaic.ValueIdx

/-- One half of layer 1 at row `p` of a block: `(R · I) · W[0..63] + X · W[64..127] + B`. -/
def blockHalf1 (R X : (⟨2, ![4000, 64]⟩ : Shape).Idx → EReal) (I : (⟨2, ![4000, 1]⟩ : Shape).Idx → EReal)
    (W : (⟨2, ![128, 32]⟩ : Shape).Idx → EReal) (B : (⟨2, ![1, 32]⟩ : Shape).Idx → EReal)
    (p : Fin 4000) (j : Fin 32) : EReal :=
  (∑ k : Fin 64, (R (ix2 p k) * I (ix2 p (0 : Fin 1))) * W (ix2 (⟨k.val, by omega⟩ : Fin 128) j)
    + ∑ k : Fin 64, X (ix2 p k) * W (ix2 (⟨64 + k.val, by omega⟩ : Fin 128) j)) + B (ix2 (0 : Fin 1) j)

/-- Layer 1 on a block, from the nine input blocks in the order the first kernel takes them: the sums over the
    positive and the negative edges, the features, the two reciprocal columns, then weight and bias of the balanced
    half and weight and bias of the unbalanced half. -/
def blockLayer1 (x0 x1 x2 : (⟨2, ![4000, 64]⟩ : Shape).Idx → EReal) (x3 x4 : (⟨2, ![4000, 1]⟩ : Shape).Idx → EReal)
    (x5 : (⟨2, ![128, 32]⟩ : Shape).Idx → EReal) (x6 : (⟨2, ![1, 32]⟩ : Shape).Idx → EReal)
    (x7 : (⟨2, ![128, 32]⟩ : Shape).Idx → EReal) (x8 : (⟨2, ![1, 32]⟩ : Shape).Idx → EReal)
    (p : Fin 4000) (q : Fin 64) : EReal :=
  Ideal.tanh (if h : q.val < 32 then blockHalf1 x0 x2 x3 x5 x6 p ⟨q.val, h⟩
    else blockHalf1 x1 x2 x4 x7 x8 p ⟨q.val - 32, by omega⟩)

/-- One half of layer 2 at row `p` of a block: columns `ca` of `SP` (times `IP`) against `W[0..31]`, columns `cb` of
    `SN` (times `IN`) against `W[32..63]`, columns `cz` of `Z` against `W[64..95]`, plus `B`. -/
def blockHalf2 (SP SN Z : (⟨2, ![4000, 64]⟩ : Shape).Idx → EReal) (IP IN : (⟨2, ![4000, 1]⟩ : Shape).Idx → EReal)
    (ca cb cz : Fin 32 → Fin 64)
    (W : (⟨2, ![96, 32]⟩ : Shape).Idx → EReal) (B : (⟨2, ![1, 32]⟩ : Shape).Idx → EReal)
    (p : Fin 4000) (j : Fin 32) : EReal :=
  ((∑ k : Fin 32, (SP (ix2 p (ca k)) * IP (ix2 p (0 : Fin 1))) * W (ix2 (⟨k.val, by omega⟩ : Fin 96) j)
    + ∑ k : Fin 32, (SN (ix2 p (cb k)) * IN (ix2 p (0 : Fin 1))) * W (ix2 (⟨32 + k.val, by omega⟩ : Fin 96) j))
    + ∑ k : Fin 32, Z (ix2 p (cz k)) * W (ix2 (⟨64 + k.val, by omega⟩ : Fin 96) j)) + B (ix2 (0 : Fin 1) j)

/-- Layer 2 on a block, from the nine input blocks in the order the second kernel takes them: the sums of the hidden
    rows over the positive and the negative edges, the hidden rows, the two reciprocal columns, then weight and bias
    of the balanced half and of the unbalanced half. -/
def blockLayer2 (x0 x1 x2 : (⟨2, ![4000, 64]⟩ : Shape).Idx → EReal) (x3 x4 : (⟨2, ![4000, 1]⟩ : Shape).Idx → EReal)
    (x5 : (⟨2, ![96, 32]⟩ : Shape).Idx → EReal) (x6 : (⟨2, ![1, 32]⟩ : Shape).Idx → EReal)
    (x7 : (⟨2, ![96, 32]⟩ : Shape).Idx → EReal) (x8 : (⟨2, ![1, 32]⟩ : Shape).Idx → EReal)
    (p : Fin 4000) (q : Fin 64) : EReal :=
  Ideal.tanh (if h : q.val < 32 then blockHalf2 x0 x1 x2 x3 x4 lo hi lo x5 x6 p ⟨q.val, h⟩
    else blockHalf2 x0 x1 x2 x3 x4 hi lo hi x7 x8 p ⟨q.val - 32, by omega⟩)

end Cert.Sgcn

end
-- ==== Proof.ArrSpec.lean ====
/-
  The two layers over whole arrays, with the mean still spelt as a product with a reciprocal column `I : [100000, 1]`
  and the bias as a `[1, 32]` row: what a kernel leaves in its output array, as a function of the nine arrays it reads.
  A block of 4000 consecutive rows of these arrays gives `Cert.Sgcn.blockLayer1` / `blockLayer2` on that block
  (`blockLayer1_eq`, `blockLayer2_eq`).
-/
import proofs.«112820_j33543694581992_2_alg».proof.Proof.BlockSpec

noncomputable section

open scoped BigOperators

namespace Cert.Sgcn

open Idealize.ShloMosaic Idealize.ShloMosaic.ValueIdx

/-- One half of layer 1 at node `r`: `(R · I) · W[0..63] + X · W[64..127] + B`. -/
def arrHalf1 (R X : (⟨2, ![100000, 64]⟩ : Shape).Idx → EReal) (I : (⟨2, ![100000, 1]⟩ : Shape).Idx → EReal)
    (W : (⟨2, ![128, 32]⟩ : Shape).Idx → EReal) (B : (⟨2, ![1, 32]⟩ : Shape).Idx → EReal)
    (r : Fin 100000) (j : Fin 32) : EReal :=
  (∑ k : Fin 64, (R (ix2 r k) * I (ix2 r (0 : Fin 1))) * W (ix2 (⟨k.val, by omega⟩ : Fin 128) j)
    + ∑ k : Fin 64, X (ix2 r k) * W (ix2 (⟨64 + k.val, by omega⟩ : Fin 128) j)) + B (ix2 (0 : Fin 1) j)

/-- Layer 1 at node `r`, column `q`, from the nine arrays the first kernel reads. -/
def arrLayer1At (a0 a1 a2 : (⟨2, ![100000, 64]⟩ : Shape).Idx → EReal) (a3 a4 : (⟨2, ![100000, 1]⟩ : Shape).Idx → EReal)
    (a5 : (⟨2, ![128, 32]⟩ : Shape).Idx → EReal) (a6 : (⟨2, ![1, 32]⟩ : Shape).Idx → EReal)
    (a7 : (⟨2, ![128, 32]⟩ : Shape).Idx → EReal) (a8 : (⟨2, ![1, 32]⟩ : Shape).Idx → EReal)
    (r : Fin 100000) (q : Fin 64) : EReal :=
  Ideal.tanh (if h : q.val < 32 then arrHalf1 a0 a2 a3 a5 a6 r ⟨q.val, h⟩
    else arrHalf1 a1 a2 a4 a7 a8 r ⟨q.val - 32, by omega⟩)

/-- Layer 1 as an array. -/
def arrLayer1 (a0 a1 a2 : (⟨2, ![100000, 64]⟩ : Shape).Idx → EReal) (a3 a4 : (⟨2, ![100000, 1]⟩ : Shape).Idx → EReal)
    (a5 : (⟨2, ![128, 32]⟩ : Shape).Idx → EReal) (a6 : (⟨2, ![1, 32]⟩ : Shape).Idx → EReal)
    (a7 : (⟨2, ![128, 32]⟩ : Shape).Idx → EReal) (a8 : (⟨2, ![1, 32]⟩ : Shape).Idx → EReal) :
    (⟨2, ![100000, 64]⟩ : Shape).Idx → EReal := fun i => arrLayer1At a0 a1 a2 a3 a4 a5 a6 a7 a8 (i 0) (i 1)

/-- One half of layer 2 at node `r`. -/
def arrHalf2 (SP SN Z : (⟨2, ![100000, 64]⟩ : Shape).Idx → EReal) (IP IN : (⟨2, ![100000, 1]⟩ : Shape).Idx → EReal)
    (ca cb cz : Fin 32 → Fin 64)
    (W : (⟨2, ![96, 32]⟩ : Shape).Idx → EReal) (B : (⟨2, ![1, 32]⟩ : Shape).Idx → EReal)
    (r : Fin 100000) (j : Fin 32) : EReal :=
  ((∑ k : Fin 32, (SP (ix2 r (ca k)) * IP (ix2 r (0 : Fin 1))) * W (ix2 (⟨k.val, by omega⟩ : Fin 96) j)
    + ∑ k : Fin 32, (SN (ix2 r (cb k)) * IN (ix2 r (0 : Fin 1))) * W (ix2 (⟨32 + k.val, by omega⟩ : Fin 96) j))
    + ∑ k : Fin 32, Z (ix2 r (cz k)) * W (ix2 (⟨64 + k.val, by omega⟩ : Fin 96) j)) + B (ix2 (0 : Fin 1) j)

/-- Layer 2 at node `r`, column `q`, from the nine arrays the second kernel reads. -/
def arrLayer2At (a0 a1 a2 : (⟨2, ![100000, 64]⟩ : Shape).Idx → EReal) (a3 a4 : (⟨2, ![100000, 1]⟩ : Shape).Idx → EReal)
    (a5 : (⟨2, ![96, 32]⟩ : Shape).Idx → EReal) (a6 : (⟨2, ![1, 32]⟩ : Shape).Idx → EReal)
    (a7 : (⟨2, ![96, 32]⟩ : Shape).Idx → EReal) (a8 : (⟨2, ![1, 32]⟩ : Shape).Idx → EReal)
    (r : Fin 100000) (q : Fin 64) : EReal :=
  Ideal.tanh (if h : q.val < 32 then arrHalf2 a0 a1 a2 a3 a4 lo hi lo a5 a6 r ⟨q.val, h⟩
    else arrHalf2 a0 a1 a2 a3 a4 hi lo hi a7 a8 r ⟨q.val - 32, by omega⟩)

/-- Layer 2 as an array. -/
def arrLayer2 (a0 a1 a2 : (⟨2, ![100000, 64]⟩ : Shape).Idx → EReal) (a3 a4 : (⟨2, ![100000, 1]⟩ : Shape).Idx → EReal)
    (a5 : (⟨2, ![96, 32]⟩ : Shape).Idx → EReal) (a6 : (⟨2, ![1, 32]⟩ : Shape).Idx → EReal)
    (a7 : (⟨2, ![96, 32]⟩ : Shape).Idx → EReal) (a8 : (⟨2, ![1, 32]⟩ : Shape).Idx → EReal) :
    (⟨2, ![100000, 64]⟩ : Shape).Idx → EReal := fun i => arrLayer2At a0 a1 a2 a3 a4 a5 a6 a7 a8 (i 0) (i 1)

section Blocks

variable (a0 a1 a2 : (⟨2, ![100000, 64]⟩ : Shape).Idx → EReal) (a3 a4 : (⟨2, ![100000, 1]⟩ : Shape).Idx → EReal)
  (x0 x1 x2 : (⟨2, ![4000, 64]⟩ : Shape).Idx → EReal) (x3 x4 : (⟨2, ![4000, 1]⟩ : Shape).Idx → EReal)
  (row : Fin 4000 → Fin 100000)
  (h0 : ∀ (p : Fin 4000) (k : Fin 64), x0 (ix2 p k) = a0 (ix2 (row p) k))
  (h1 : ∀ (p : Fin 4000) (k : Fin 64), x1 (ix2 p k) = a1 (ix2 (row p) k))
  (h2 : ∀ (p : Fin 4000) (k : Fin 64), x2 (ix2 p k) = a2 (ix2 (row p) k))
  (h3 : ∀ (p : Fin 4000) (u : Fin 1), x3 (ix2 p u) = a3 (ix2 (row p) u))
  (h4 : ∀ (p : Fin 4000) (u : Fin 1), x4 (ix2 p u) = a4 (ix2 (row p) u))

include h0 h1 h2 h3 h4

/-- On a block whose rows are the arrays' rows `row p`, layer 1 of the block is layer 1 of the arrays at `row p`. -/
theorem blockLayer1_eq (a5 : (⟨2, ![128, 32]⟩ : Shape).Idx → EReal) (a6 : (⟨2, ![1, 32]⟩ : Shape).Idx → EReal)
    (a7 : (⟨2, ![128, 32]⟩ : Shape).Idx → EReal) (a8 : (⟨2, ![1, 32]⟩ : Shape).Idx → EReal) (p : Fin 4000) (q : Fin 64) :
    blockLayer1 x0 x1 x2 x3 x4 a5 a6 a7 a8 p q = arrLayer1At a0 a1 a2 a3 a4 a5 a6 a7 a8 (row p) q := by
  unfold blockLayer1 arrLayer1At blockHalf1 arrHalf1
  simp only [h0, h1, h2, h3, h4]

/-- The same for layer 2. -/
theorem blockLayer2_eq (a5 : (⟨2, ![96, 32]⟩ : Shape).Idx → EReal) (a6 : (⟨2, ![1, 32]⟩ : Shape).Idx → EReal)
    (a7 : (⟨2, ![96, 32]⟩ : Shape).Idx → EReal) (a8 : (⟨2, ![1, 32]⟩ : Shape).Idx → EReal) (p : Fin 4000) (q : Fin 64) :
    blockLayer2 x0 x1 x2 x3 x4 a5 a6 a7 a8 p q = arrLayer2At a0 a1 a2 a3 a4 a5 a6 a7 a8 (row p) q := by
  unfold blockLayer2 arrLayer2At blockHalf2 arrHalf2
  simp only [h0, h1, h2, h3, h4]

end Blocks

end Cert.Sgcn

end
-- ==== Proof.Region0.lean ====
/-
  Kernel 1 of the program (layer 1) over its 25 blocks of 4000 nodes, for ANY contents `V` of the buffers when the kernel
  is entered: block `t` of each row-tiled array is rows `4000 t .. 4000 t + 3999`, the weights and biases are read whole
  at every block, so what block `t` writes back is rows `4000 t ..` of layer 1 of the nine arrays, and the 25 blocks
  cover the output array.
-/
import proofs.«112820_j33543694581992_2_alg».proof.Proof.Gen.KernelIdeal.Frame
import proofs.«112820_j33543694581992_2_alg».proof.Proof.ArrSpec
import Idealize.ShloMosaic.Lib.Pipeline.Value

set_option maxRecDepth 16384

noncomputable section

namespace Cert.Sgcn.Ker0

open Cert.KernelIdeal Cert.KernelIdeal.Gen Cert.Sgcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the row-tiled windows sit at block row `t`, the weights and biases at block 0. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_9.index t (0 : Fin 2) = t.val ∧ win0_9.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem nPoints : cfg0.N = 25 := N_0

/-- The array row that row `p` of block `t` is. -/
def row (t : Fin cfg0.N) (p : Fin 4000) : Fin 100000 :=
  ⟨t.val * 4000 + p.val, by have := t.isLt; have := nPoints; omega⟩

/-- Window 0's block at point `t` is rows `4000 t ..` of its array. -/
theorem blk_0 (c : Dev nD) (t : Fin cfg0.N) (p : Fin 4000) (k : Fin 64) :
    iblk0 V c 0 t (ix2 p k) = V c main_v35 (ix2 (row t p) k) := by
  show V c main_v35 (((cfg0.win 0).blk t).view.emb (ix2 p k)) = _
  refine congrArg (V c main_v35) ?_
  funext a
  apply Fin.ext
  obtain ⟨e0, e1, -, -, -, -, -, -, -, -, -, -, -, -, -, -, -, -, -, -⟩ := idx t
  match a with
  | ⟨0, _⟩ => show win0_0.index t (0 : Fin 2) * 4000 + 1 * p.val = t.val * 4000 + p.val; omega
  | ⟨1, _⟩ => show win0_0.index t (1 : Fin 2) * 64 + 1 * k.val = k.val; omega

/-- Window 1's block at point `t` is rows `4000 t ..` of its array. -/
theorem blk_1 (c : Dev nD) (t : Fin cfg0.N) (p : Fin 4000) (k : Fin 64) :
    iblk0 V c 1 t (ix2 p k) = V c main_v49 (ix2 (row t p) k) := by
  show V c main_v49 (((cfg0.win 1).blk t).view.emb (ix2 p k)) = _
  refine congrArg (V c main_v49) ?_
  funext a
  apply Fin.ext
  obtain ⟨-, -, e0, e1, -, -, -, -, -, -, -, -, -, -, -, -, -, -, -, -⟩ := idx t
  match a with
  | ⟨0, _⟩ => show win0_1.index t (0 : Fin 2) * 4000 + 1 * p.val = t.val * 4000 + p.val; omega
  | ⟨1, _⟩ => show win0_1.index t (1 : Fin 2) * 64 + 1 * k.val = k.val; omega

/-- Window 2's block at point `t` is rows `4000 t ..` of its array. -/
theorem blk_2 (c : Dev nD) (t : Fin cfg0.N) (p : Fin 4000) (k : Fin 64) :
    iblk0 V c 2 t (ix2 p k) = V c main_arg0 (ix2 (row t p) k) := by
  show V c main_arg0 (((cfg0.win 2).blk t).view.emb (ix2 p k)) = _
  refine congrArg (V c main_arg0) ?_
  funext a
  apply Fin.ext
  obtain ⟨-, -, -, -, e0, e1, -, -, -, -, -, -, -, -, -, -, -, -, -, -⟩ := idx t
  match a with
  | ⟨0, _⟩ => show win0_2.index t (0 : Fin 2) * 4000 + 1 * p.val = t.val * 4000 + p.val; omega
  | ⟨1, _⟩ => show win0_2.index t (1 : Fin 2) * 64 + 1 * k.val = k.val; omega

/-- Window 3's block at point `t` is rows `4000 t ..` of its one-column array. -/
theorem blk_3 (c : Dev nD) (t : Fin cfg0.N) (p : Fin 4000) (u : Fin 1) :
    iblk0 V c 3 t (ix2 p u) = V c main_v17 (ix2 (row t p) u) := by
  show V c main_v17 (((cfg0.win 3).blk t).view.emb (ix2 p u)) = _
  refine congrArg (V c main_v17) ?_
  funext a
  apply Fin.ext
  obtain ⟨-, -, -, -, -, -, e0, e1, -, -, -, -, -, -, -, -, -, -, -, -⟩ := idx t
  match a with
  | ⟨0, _⟩ => show win0_3.index t (0 : Fin 2) * 4000 + 1 * p.val = t.val * 4000 + p.val; omega
  | ⟨1, _⟩ => show win0_3.index t (1 : Fin 2) * 1 + 1 * u.val = u.val; omega

/-- Window 4's block at point `t` is rows `4000 t ..` of its one-column array. -/
theorem blk_4 (c : Dev nD) (t : Fin cfg0.N) (p : Fin 4000) (u : Fin 1) :
    iblk0 V c 4 t (ix2 p u) = V c main_v21 (ix2 (row t p) u) := by
  show V c main_v21 (((cfg0.win 4).blk t).view.emb (ix2 p u)) = _
  refine congrArg (V c main_v21) ?_
  funext a
  apply Fin.ext
  obtain ⟨-, -, -, -, -, -, -, -, e0, e1, -, -, -, -, -, -, -, -, -, -⟩ := idx t
  match a with
  | ⟨0, _⟩ => show win0_4.index t (0 : Fin 2) * 4000 + 1 * p.val = t.val * 4000 + p.val; omega
  | ⟨1, _⟩ => show win0_4.index t (1 : Fin 2) * 1 + 1 * u.val = u.val; omega

/-- Window 5's block at every point is its whole array. -/
theorem blk_5 (c : Dev nD) (t : Fin cfg0.N) : iblk0 V c 5 t = V c main_arg3 := by
  funext y
  show V c main_arg3 (((cfg0.win 5).blk t).view.emb y) = V c main_arg3 y
  refine congrArg (V c main_arg3) ?_
  funext a
  apply Fin.ext
  obtain ⟨-, -, -, -, -, -, -, -, -, -, -, -, e0, e1, -, -, -, -, -, -⟩ := idx t
  match a with
  | ⟨0, _⟩ => show win0_5.index t (0 : Fin 2) * 128 + 1 * (y 0).val = (y 0).val; omega
  | ⟨1, _⟩ => show win0_5.index t (1 : Fin 2) * 32 + 1 * (y 1).val = (y 1).val; omega

/-- Window 6's block at every point is its whole array. -/
theorem blk_6 (c : Dev nD) (t : Fin cfg0.N) : iblk0 V c 6 t = V c main_v50 := by
  funext y
  show V c main_v50 (((cfg0.win 6).blk t).view.emb y) = V c main_v50 y
  refine congrArg (V c main_v50) ?_
  funext a
  apply Fin.ext
  obtain ⟨-, -, -, -, -, -, -, -, -, -, -, -, -, -, e0, e1, -, -, -, -⟩ := idx t
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- Window 7's block at every point is its whole array. -/
theorem blk_7 (c : Dev nD) (t : Fin cfg0.N) : iblk0 V c 7 t = V c main_arg5 := by
  funext y
  show V c main_arg5 (((cfg0.win 7).blk t).view.emb y) = V c main_arg5 y
  refine congrArg (V c main_arg5) ?_
  funext a
  apply Fin.ext
  obtain ⟨-, -, -, -, -, -, -, -, -, -, -, -, -, -, -, -, e0, e1, -, -⟩ := idx t
  match a with
  | ⟨0, _⟩ => show win0_7.index t (0 : Fin 2) * 128 + 1 * (y 0).val = (y 0).val; omega
  | ⟨1, _⟩ => show win0_7.index t (1 : Fin 2) * 32 + 1 * (y 1).val = (y 1).val; omega

/-- Window 8's block at every point is its whole array. -/
theorem blk_8 (c : Dev nD) (t : Fin cfg0.N) : iblk0 V c 8 t = V c main_v51 := by
  funext y
  show V c main_v51 (((cfg0.win 8).blk t).view.emb y) = V c main_v51 y
  refine congrArg (V c main_v51) ?_
  funext a
  apply Fin.ext
  obtain ⟨-, -, -, -, -, -, -, -, -, -, -, -, -, -, -, -, -, -, e0, e1⟩ := idx t
  match a with
  | ⟨0, _⟩ => show win0_8.index t (0 : Fin 2) * 1 + 1 * (y 0).val = (y 0).val; omega
  | ⟨1, _⟩ => show win0_8.index t (1 : Fin 2) * 32 + 1 * (y 1).val = (y 1).val; omega

/-- Entry `(p, q)` of the output block at point `t` is entry `(4000 t + p, q)` of the output array. -/
theorem emb_out (t : Fin cfg0.N) (p : Fin 4000) (q : Fin 64) :
    ((cfg0.win 9).blk t).view.emb (ix2 p q) = ix2 (row t p) q := by
  funext a
  apply Fin.ext
  obtain ⟨-, -, -, -, -, -, -, -, -, -, e0, e1, -, -, -, -, -, -, -, -⟩ := idx t
  match a with
  | ⟨0, _⟩ => show win0_9.index t (0 : Fin 2) * 4000 + 1 * p.val = t.val * 4000 + p.val; omega
  | ⟨1, _⟩ => show win0_9.index t (1 : Fin 2) * 64 + 1 * q.val = q.val; omega

/-- The nine arrays the kernel reads, as it finds them. -/
abbrev result (c : Dev nD) : (⟨2, ![100000, 64]⟩ : Shape).Idx → EReal :=
  arrLayer1 (V c main_v35) (V c main_v49) (V c main_arg0) (V c main_v17) (V c main_v21) (V c main_arg3) (V c main_v50) (V c main_arg5) (V c main_v51)

section Body

-- the kernel body read at an entry of its output block (proved in its own module)
variable (hbody : ∀ (x0 x1 x2 : Vec Ideal S4000x64 .f32) (x3 x4 : Vec Ideal S4000x1 .f32) (x5 : Vec Ideal S128x32 .f32) (x6 : Vec Ideal S1x32 .f32) (x7 : Vec Ideal S128x32 .f32) (x8 : Vec Ideal S1x32 .f32) (p : Fin 4000) (q : Fin 64),
      out0_9 (F := Ideal) x0 x1 x2 x3 x4 x5 x6 x7 x8 (ix2 p q) = blockLayer1 x0 x1 x2 x3 x4 x5 x6 x7 x8 p q)

include hbody

/-- What the body leaves at entry `y` of the output block at point `t` is layer 1 of the arrays at that entry's place
    in the output array. -/
theorem point (c : Dev nD) (t : Fin cfg0.N) (y : (⟨2, ![4000, 64]⟩ : Shape).Idx) :
    out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) y
      = result V c (((cfg0.win 9).blk t).view.emb y) := by
  obtain ⟨p, q, rfl⟩ : ∃ (p : Fin 4000) (q : Fin 64), y = ix2 p q := ⟨y 0, y 1, eq_ix2 y⟩
  refine (hbody _ _ _ _ _ _ _ _ _ p q).trans ?_
  rw [emb_out, blk_5 V c t, blk_6 V c t, blk_7 V c t, blk_8 V c t]
  exact blockLayer1_eq _ _ _ _ _ _ _ _ _ _ (row t) (blk_0 V c t) (blk_1 V c t) (blk_2 V c t) (blk_3 V c t) (blk_4 V c t) _ _ _ _ p q

/-- What point `t` writes back is block `t` of layer 1 of the arrays. -/
theorem flushed_eq (c : Dev nD) (t : Fin cfg0.N) :
    (dat0 V c).flushed 9 t = ((cfg0.win 9).blk t).view.read (Elt Ideal) (result V c) := by
  show (cfg0.win 9).cut (grid0.coords t) ((dat0 V c).after 9 t) = _
  rw [after0_9]
  funext y
  exact point V hbody c t y

/-- The output array after the kernel: layer 1 of the nine arrays (the 25 blocks cover it: row `r` is in block `r / 4000`). -/
theorem final (c : Dev nD) : (dat0 V c).arrAt 9 cfg0.N = result V c :=
  (dat0 V c).arrAt_eq_of_cover 9 (result V c) (fun t _ => flushed_eq V hbody c t) fun (i : S100000x64.Idx) => by
    have hi0 : (i 0).val < 100000 := (i 0).isLt
    have hi1 : (i 1).val < 64 := (i 1).isLt
    obtain ⟨t, ht⟩ : ∃ t : Fin cfg0.N, t.val = (i 0).val / 4000 := ⟨⟨(i 0).val / 4000, by rw [nPoints]; omega⟩, rfl⟩
    refine ⟨t, flush0_9 t, ?_⟩
    show i ∈ ((View.whole main_v52).slice (win0_9.rect t)).set
    rw [View.set_slice_whole, Rect.mem_set_unit]
    intro a
    obtain ⟨-, -, -, -, -, -, -, -, -, -, e0, e1, -, -, -, -, -, -, -, -⟩ := idx t
    match a with
    | ⟨0, _⟩ =>
      show win0_9.index t (0 : Fin 2) * 4000 ≤ (i 0).val ∧ (i 0).val < win0_9.index t (0 : Fin 2) * 4000 + 4000
      rw [e0, ht]; omega
    | ⟨1, _⟩ =>
      show win0_9.index t (1 : Fin 2) * 64 ≤ (i 1).val ∧ (i 1).val < win0_9.index t (1 : Fin 2) * 64 + 64
      rw [e1]; omega

end Body

end Cert.Sgcn.Ker0

end
-- ==== Proof.Region1.lean ====
/-
  Kernel 2 of the program (layer 2) over its 25 blocks of 4000 nodes, for ANY contents `V` of the buffers when the kernel
  is entered: block `t` of each row-tiled array is rows `4000 t .. 4000 t + 3999`, the weights and biases are read whole
  at every block, so what block `t` writes back is rows `4000 t ..` of layer 2 of the nine arrays, and the 25 blocks
  cover the output array.
-/
import proofs.«112820_j33543694581992_2_alg».proof.Proof.Gen.KernelIdeal.Frame
import proofs.«112820_j33543694581992_2_alg».proof.Proof.ArrSpec
import Idealize.ShloMosaic.Lib.Pipeline.Value

set_option maxRecDepth 16384

noncomputable section

namespace Cert.Sgcn.Ker1

open Cert.KernelIdeal Cert.KernelIdeal.Gen Cert.Sgcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: the row-tiled windows sit at block row `t`, the weights and biases at block 0. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_9.index t (0 : Fin 2) = t.val ∧ win1_9.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem nPoints : cfg1.N = 25 := N_1

/-- The array row that row `p` of block `t` is. -/
def row (t : Fin cfg1.N) (p : Fin 4000) : Fin 100000 :=
  ⟨t.val * 4000 + p.val, by have := t.isLt; have := nPoints; omega⟩

/-- Window 0's block at point `t` is rows `4000 t ..` of its array. -/
theorem blk_0 (c : Dev nD) (t : Fin cfg1.N) (p : Fin 4000) (k : Fin 64) :
    iblk1 V c 0 t (ix2 p k) = V c main_v66 (ix2 (row t p) k) := by
  show V c main_v66 (((cfg1.win 0).blk t).view.emb (ix2 p k)) = _
  refine congrArg (V c main_v66) ?_
  funext a
  apply Fin.ext
  obtain ⟨e0, e1, -, -, -, -, -, -, -, -, -, -, -, -, -, -, -, -, -, -⟩ := idx t
  match a with
  | ⟨0, _⟩ => show win1_0.index t (0 : Fin 2) * 4000 + 1 * p.val = t.val * 4000 + p.val; omega
  | ⟨1, _⟩ => show win1_0.index t (1 : Fin 2) * 64 + 1 * k.val = k.val; omega

/-- Window 1's block at point `t` is rows `4000 t ..` of its array. -/
theorem blk_1 (c : Dev nD) (t : Fin cfg1.N) (p : Fin 4000) (k : Fin 64) :
    iblk1 V c 1 t (ix2 p k) = V c main_v80 (ix2 (row t p) k) := by
  show V c main_v80 (((cfg1.win 1).blk t).view.emb (ix2 p k)) = _
  refine congrArg (V c main_v80) ?_
  funext a
  apply Fin.ext
  obtain ⟨-, -, e0, e1, -, -, -, -, -, -, -, -, -, -, -, -, -, -, -, -⟩ := idx t
  match a with
  | ⟨0, _⟩ => show win1_1.index t (0 : Fin 2) * 4000 + 1 * p.val = t.val * 4000 + p.val; omega
  | ⟨1, _⟩ => show win1_1.index t (1 : Fin 2) * 64 + 1 * k.val = k.val; omega

/-- Window 2's block at point `t` is rows `4000 t ..` of its array. -/
theorem blk_2 (c : Dev nD) (t : Fin cfg1.N) (p : Fin 4000) (k : Fin 64) :
    iblk1 V c 2 t (ix2 p k) = V c main_v52 (ix2 (row t p) k) := by
  show V c main_v52 (((cfg1.win 2).blk t).view.emb (ix2 p k)) = _
  refine congrArg (V c main_v52) ?_
  funext a
  apply Fin.ext
  obtain ⟨-, -, -, -, e0, e1, -, -, -, -, -, -, -, -, -, -, -, -, -, -⟩ := idx t
  match a with
  | ⟨0, _⟩ => show win1_2.index t (0 : Fin 2) * 4000 + 1 * p.val = t.val * 4000 + p.val; omega
  | ⟨1, _⟩ => show win1_2.index t (1 : Fin 2) * 64 + 1 * k.val = k.val; omega

/-- Window 3's block at point `t` is rows `4000 t ..` of its one-column array. -/
theorem blk_3 (c : Dev nD) (t : Fin cfg1.N) (p : Fin 4000) (u : Fin 1) :
    iblk1 V c 3 t (ix2 p u) = V c main_v17 (ix2 (row t p) u) := by
  show V c main_v17 (((cfg1.win 3).blk t).view.emb (ix2 p u)) = _
  refine congrArg (V c main_v17) ?_
  funext a
  apply Fin.ext
  obtain ⟨-, -, -, -, -, -, e0, e1, -, -, -, -, -, -, -, -, -, -, -, -⟩ := idx t
  match a with
  | ⟨0, _⟩ => show win1_3.index t (0 : Fin 2) * 4000 + 1 * p.val = t.val * 4000 + p.val; omega
  | ⟨1, _⟩ => show win1_3.index t (1 : Fin 2) * 1 + 1 * u.val = u.val; omega

/-- Window 4's block at point `t` is rows `4000 t ..` of its one-column array. -/
theorem blk_4 (c : Dev nD) (t : Fin cfg1.N) (p : Fin 4000) (u : Fin 1) :
    iblk1 V c 4 t (ix2 p u) = V c main_v21 (ix2 (row t p) u) := by
  show V c main_v21 (((cfg1.win 4).blk t).view.emb (ix2 p u)) = _
  refine congrArg (V c main_v21) ?_
  funext a
  apply Fin.ext
  obtain ⟨-, -, -, -, -, -, -, -, e0, e1, -, -, -, -, -, -, -, -, -, -⟩ := idx t
  match a with
  | ⟨0, _⟩ => show win1_4.index t (0 : Fin 2) * 4000 + 1 * p.val = t.val * 4000 + p.val; omega
  | ⟨1, _⟩ => show win1_4.index t (1 : Fin 2) * 1 + 1 * u.val = u.val; omega

/-- Window 5's block at every point is its whole array. -/
theorem blk_5 (c : Dev nD) (t : Fin cfg1.N) : iblk1 V c 5 t = V c main_arg7 := by
  funext y
  show V c main_arg7 (((cfg1.win 5).blk t).view.emb y) = V c main_arg7 y
  refine congrArg (V c main_arg7) ?_
  funext a
  apply Fin.ext
  obtain ⟨-, -, -, -, -, -, -, -, -, -, -, -, e0, e1, -, -, -, -, -, -⟩ := idx t
  match a with
  | ⟨0, _⟩ => show win1_5.index t (0 : Fin 2) * 96 + 1 * (y 0).val = (y 0).val; omega
  | ⟨1, _⟩ => show win1_5.index t (1 : Fin 2) * 32 + 1 * (y 1).val = (y 1).val; omega

/-- Window 6's block at every point is its whole array. -/
theorem blk_6 (c : Dev nD) (t : Fin cfg1.N) : iblk1 V c 6 t = V c main_v81 := by
  funext y
  show V c main_v81 (((cfg1.win 6).blk t).view.emb y) = V c main_v81 y
  refine congrArg (V c main_v81) ?_
  funext a
  apply Fin.ext
  obtain ⟨-, -, -, -, -, -, -, -, -, -, -, -, -, -, e0, e1, -, -, -, -⟩ := idx t
  match a with
  | ⟨0, _⟩ => show win1_6.index t (0 : Fin 2) * 1 + 1 * (y 0).val = (y 0).val; omega
  | ⟨1, _⟩ => show win1_6.index t (1 : Fin 2) * 32 + 1 * (y 1).val = (y 1).val; omega

/-- Window 7's block at every point is its whole array. -/
theorem blk_7 (c : Dev nD) (t : Fin cfg1.N) : iblk1 V c 7 t = V c main_arg9 := by
  funext y
  show V c main_arg9 (((cfg1.win 7).blk t).view.emb y) = V c main_arg9 y
  refine congrArg (V c main_arg9) ?_
  funext a
  apply Fin.ext
  obtain ⟨-, -, -, -, -, -, -, -, -, -, -, -, -, -, -, -, e0, e1, -, -⟩ := idx t
  match a with
  | ⟨0, _⟩ => show win1_7.index t (0 : Fin 2) * 96 + 1 * (y 0).val = (y 0).val; omega
  | ⟨1, _⟩ => show win1_7.index t (1 : Fin 2) * 32 + 1 * (y 1).val = (y 1).val; omega

/-- Window 8's block at every point is its whole array. -/
theorem blk_8 (c : Dev nD) (t : Fin cfg1.N) : iblk1 V c 8 t = V c main_v82 := by
  funext y
  show V c main_v82 (((cfg1.win 8).blk t).view.emb y) = V c main_v82 y
  refine congrArg (V c main_v82) ?_
  funext a
  apply Fin.ext
  obtain ⟨-, -, -, -, -, -, -, -, -, -, -, -, -, -, -, -, -, -, e0, e1⟩ := idx t
  match a with
  | ⟨0, _⟩ => show win1_8.index t (0 : Fin 2) * 1 + 1 * (y 0).val = (y 0).val; omega
  | ⟨1, _⟩ => show win1_8.index t (1 : Fin 2) * 32 + 1 * (y 1).val = (y 1).val; omega

/-- Entry `(p, q)` of the output block at point `t` is entry `(4000 t + p, q)` of the output array. -/
theorem emb_out (t : Fin cfg1.N) (p : Fin 4000) (q : Fin 64) :
    ((cfg1.win 9).blk t).view.emb (ix2 p q) = ix2 (row t p) q := by
  funext a
  apply Fin.ext
  obtain ⟨-, -, -, -, -, -, -, -, -, -, e0, e1, -, -, -, -, -, -, -, -⟩ := idx t
  match a with
  | ⟨0, _⟩ => show win1_9.index t (0 : Fin 2) * 4000 + 1 * p.val = t.val * 4000 + p.val; omega
  | ⟨1, _⟩ => show win1_9.index t (1 : Fin 2) * 64 + 1 * q.val = q.val; omega

/-- The nine arrays the kernel reads, as it finds them. -/
abbrev result (c : Dev nD) : (⟨2, ![100000, 64]⟩ : Shape).Idx → EReal :=
  arrLayer2 (V c main_v66) (V c main_v80) (V c main_v52) (V c main_v17) (V c main_v21) (V c main_arg7) (V c main_v81) (V c main_arg9) (V c main_v82)

section Body

-- the kernel body read at an entry of its output block (proved in its own module)
variable (hbody : ∀ (x0 x1 x2 : Vec Ideal S4000x64 .f32) (x3 x4 : Vec Ideal S4000x1 .f32) (x5 : Vec Ideal S96x32 .f32) (x6 : Vec Ideal S1x32 .f32) (x7 : Vec Ideal S96x32 .f32) (x8 : Vec Ideal S1x32 .f32) (p : Fin 4000) (q : Fin 64),
      out1_9 (F := Ideal) x0 x1 x2 x3 x4 x5 x6 x7 x8 (ix2 p q) = blockLayer2 x0 x1 x2 x3 x4 x5 x6 x7 x8 p q)

include hbody

/-- What the body leaves at entry `y` of the output block at point `t` is layer 2 of the arrays at that entry's place
    in the output array. -/
theorem point (c : Dev nD) (t : Fin cfg1.N) (y : (⟨2, ![4000, 64]⟩ : Shape).Idx) :
    out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) y
      = result V c (((cfg1.win 9).blk t).view.emb y) := by
  obtain ⟨p, q, rfl⟩ : ∃ (p : Fin 4000) (q : Fin 64), y = ix2 p q := ⟨y 0, y 1, eq_ix2 y⟩
  refine (hbody _ _ _ _ _ _ _ _ _ p q).trans ?_
  rw [emb_out, blk_5 V c t, blk_6 V c t, blk_7 V c t, blk_8 V c t]
  exact blockLayer2_eq _ _ _ _ _ _ _ _ _ _ (row t) (blk_0 V c t) (blk_1 V c t) (blk_2 V c t) (blk_3 V c t) (blk_4 V c t) _ _ _ _ p q

/-- What point `t` writes back is block `t` of layer 2 of the arrays. -/
theorem flushed_eq (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9]
  funext y
  exact point V hbody c t y

/-- The output array after the kernel: layer 2 of the nine arrays (the 25 blocks cover it: row `r` is in block `r / 4000`). -/
theorem final (c : Dev nD) : (dat1 V c).arrAt 9 cfg1.N = result V c :=
  (dat1 V c).arrAt_eq_of_cover 9 (result V c) (fun t _ => flushed_eq V hbody c t) fun (i : S100000x64.Idx) => by
    have hi0 : (i 0).val < 100000 := (i 0).isLt
    have hi1 : (i 1).val < 64 := (i 1).isLt
    obtain ⟨t, ht⟩ : ∃ t : Fin cfg1.N, t.val = (i 0).val / 4000 := ⟨⟨(i 0).val / 4000, by rw [nPoints]; omega⟩, rfl⟩
    refine ⟨t, flush1_9 t, ?_⟩
    show i ∈ ((View.whole main_v83).slice (win1_9.rect t)).set
    rw [View.set_slice_whole, Rect.mem_set_unit]
    intro a
    obtain ⟨-, -, -, -, -, -, -, -, -, -, e0, e1, -, -, -, -, -, -, -, -⟩ := idx t
    match a with
    | ⟨0, _⟩ =>
      show win1_9.index t (0 : Fin 2) * 4000 ≤ (i 0).val ∧ (i 0).val < win1_9.index t (0 : Fin 2) * 4000 + 4000
      rw [e0, ht]; omega
    | ⟨1, _⟩ =>
      show win1_9.index t (1 : Fin 2) * 64 ≤ (i 1).val ∧ (i 1).val < win1_9.index t (1 : Fin 2) * 64 + 64
      rw [e1]; omega

end Body

end Cert.Sgcn.Ker1

end
-- ==== Proof.LibMatmul.lean ====
/-
  A plain matrix product read at an index, over the extended reals.

  For l : [A, K] and r : [K, B], contracted over the one shared axis with no batch axes, entry (a, b) of the
  product is the sum over k of l(a, k) · r(k, b) — for the host's dot product and for the kernel's matrix
  product into a zero accumulator alike. Generic in A, K, B.
-/
import Idealize.ShloMosaic.Lib.ValueIdx
import Idealize.ShloMosaic.PureOps.Ideal.Laws

noncomputable section

open scoped BigOperators

namespace Idealize.ShloMosaic.MatmulIdx

open Idealize.ShloMosaic Idealize.ShloMosaic.ValueIdx

/-- The dimension numbers of l @ r for l : [A, K], r : [K, B]: contract axis 1 of l with axis 0 of r. -/
abbrev mmDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem lhs_row (j : (⟨2, ![A, B]⟩ : Shape).Idx) (q : (mmDims A K B wf).contr.Idx) :
    ((mmDims A K B wf).lhsIdx j q 0).val = (j 0).val := by
  unfold DotDims.lhsIdx
  rw [dif_neg (show ¬(0 : Fin (⟨2, ![A, K]⟩ : Shape).rank) ∈ (mmDims A K B wf).lhsBatch from List.not_mem_nil),
    dif_pos (show (0 : Fin (⟨2, ![A, K]⟩ : Shape).rank) ∈ (mmDims A K B wf).lhsNonContracting from List.mem_singleton.mpr rfl)]
  rfl

theorem lhs_contr (j : (⟨2, ![A, B]⟩ : Shape).Idx) (q : (mmDims A K B wf).contr.Idx) :
    ((mmDims A K B wf).lhsIdx j q 1).val = (q ⟨0, (Nat.zero_lt_one : 0 < (mmDims A K B wf).contr.rank)⟩).val :=
  (mmDims A K B wf).lhsIdx_val_of_single rfl j q

theorem rhs_contr (j : (⟨2, ![A, B]⟩ : Shape).Idx) (q : (mmDims A K B wf).contr.Idx) :
    ((mmDims A K B wf).rhsIdx j q 0).val = (q ⟨0, (Nat.zero_lt_one : 0 < (mmDims A K B wf).contr.rank)⟩).val :=
  (mmDims A K B wf).rhsIdx_val_of_single rfl j q

theorem rhs_col (j : (⟨2, ![A, B]⟩ : Shape).Idx) (q : (mmDims A K B wf).contr.Idx) :
    ((mmDims A K B wf).rhsIdx j q 1).val = (j 1).val := by
  unfold DotDims.rhsIdx
  rw [dif_neg (show ¬(1 : Fin (⟨2, ![K, B]⟩ : Shape).rank) ∈ (mmDims A K B wf).rhsBatch from List.not_mem_nil),
    dif_pos (show (1 : Fin (⟨2, ![K, B]⟩ : Shape).rank) ∈ (mmDims A K B wf).rhsNonContracting from List.mem_singleton.mpr rfl)]
  rfl

/-- The contraction's index set is the K positions of the shared axis: the sum over it is the sum over k. -/
theorem contr_sum (l : (⟨2, ![A, K]⟩ : Shape).Idx → EReal) (r : (⟨2, ![K, B]⟩ : Shape).Idx → EReal) (a : Fin A) (b : Fin B) :
    ∑ q : (mmDims A K B wf).contr.Idx, l ((mmDims A K B wf).lhsIdx (ix2 a b) q) * r ((mmDims A K B wf).rhsIdx (ix2 a b) q)
      = ∑ k : Fin K, l (ix2 a k) * r (ix2 k b) := by
  rw [← Equiv.sum_comp (contrEquiv1 (mmDims A K B wf) K rfl rfl).symm]
  refine Finset.sum_congr rfl fun k _ => ?_
  have hk := contrEquiv1_symm_val (mmDims A K B wf) K rfl rfl k
  have el : (mmDims A K B wf).lhsIdx (ix2 a b) ((contrEquiv1 (mmDims A K B wf) K rfl rfl).symm k) = ix2 a k :=
    funext fun x => Fin.ext (by
      match x with
      | ⟨0, _⟩ => exact lhs_row wf _ _
      | ⟨1, _⟩ => exact (lhs_contr wf _ _).trans hk)
  have er : (mmDims A K B wf).rhsIdx (ix2 a b) ((contrEquiv1 (mmDims A K B wf) K rfl rfl).symm k) = ix2 k b :=
    funext fun x => Fin.ext (by
      match x with
      | ⟨0, _⟩ => exact (rhs_contr wf _ _).trans hk
      | ⟨1, _⟩ => exact rhs_col wf _ _)
  rw [el, er]

/-- The host's dot product at (a, b). -/
theorem dotGeneral_ix2 {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (mmDims A K B wf) prec sched l r (ix2 a b) = ∑ k : Fin K, l (ix2 a k) * r (ix2 k b) :=
  (Ideal.dotGeneral_apply _ prec sched l r _).trans (contr_sum wf l r a b)

/-- The kernel's matrix product into a zero accumulator at (a, b). -/
theorem matmul_zero_ix2 {φ₁ φ₂ : FTy} (prec : Option ContractPrecision)
    (l : FVec Ideal ⟨2, ![A, K]⟩ φ₁) (r : FVec Ideal ⟨2, ![K, B]⟩ φ₂) (a : Fin A) (b : Fin B) :
    FloatOps.matmul (mmDims A K B wf) prec l r (constant ⟨2, ![A, B]⟩ .f32 0x00000000#32) (ix2 a b)
      = ∑ k : Fin K, l (ix2 a k) * r (ix2 k b) :=
  (Ideal.matmul_constant_zero_apply _ prec l r _).trans (contr_sum wf l r a b)

end Idealize.ShloMosaic.MatmulIdx

end
-- ==== Proof.LibKeepdims.lean ====
/-
  Two layout readings of a column kept beside a matrix: a vector of length a viewed as an [a, 1] column reads its
  entry at the row, and an [a, 1] column spread over b lanes reads, at (p, c), its entry at row p.
-/
import Idealize.ShloMosaic.Lib.Pipeline.Value
import Idealize.ShloMosaic.Lib.ValueIdx

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Bodies.lean ====
/-
  The two kernel bodies read at an index, over the extended reals.

  Each body stores one [4000, 64] block: the hyperbolic tangent of two [4000, 32] halves set side by side. A half is a
  sum of matrix products of (row-scaled) input columns with row blocks of a weight, plus a bias row spread over the
  rows. Read at row p and column q, the stored value is the hyperbolic tangent of the half that column q falls in,
  each product being the finite sum over the contracted axis.
-/
import proofs.«112820_j33543694581992_2_alg».proof.Proof.Gen.KernelIdeal.Frame
import proofs.«112820_j33543694581992_2_alg».proof.Proof.BlockSpec
import proofs.«112820_j33543694581992_2_alg».proof.Proof.LibMatmul
import proofs.«112820_j33543694581992_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.Sgcn.Bodies

open Idealize.ShloMosaic Idealize.ShloMosaic.ValueIdx Cert.KernelIdeal Cert.KernelIdeal.Gen

/-- The zero offsets of a whole-buffer rectangle, as a constant function. -/
theorem zero_off : (![0, 0] : Fin 2 → Nat) = fun _ => 0 := funext fun a => by fin_cases a <;> rfl

/-- A load through a unit-stride sub-rectangle at offsets (o0, o1) reads, at (i, j), the buffer at (o0 + i, o1 + j). -/
theorem ld_sub_apply {Val : EltTy → Type} {e : EltTy} {A B A' B' : Nat} (o0 o1 : Nat)
    (X : (⟨2, ![A, B]⟩ : Shape).Idx → Val e)
    (inb : ∀ a, (![o0, o1] : Fin 2 → Nat) a + (⟨2, ![A', B']⟩ : Shape).size a ≤ (⟨2, ![A, B]⟩ : Shape).size a)
    (i : Fin A') (j : Fin B') (hi : o0 + i.val < A) (hj : o1 + j.val < B) :
    View.ld X (Rect.unit (s := ⟨2, ![A, B]⟩) ![o0, o1] (⟨2, ![A', B']⟩ : Shape).size inb) (ix2 i j)
      = X (ix2 ⟨o0 + i.val, hi⟩ ⟨o1 + j.val, hj⟩) := by
  show X _ = X _
  refine congrArg X (funext fun a => Fin.ext ?_)
  match a with
  | ⟨0, _⟩ => show o0 + 1 * i.val = o0 + i.val; omega
  | ⟨1, _⟩ => show o1 + 1 * j.val = o1 + j.val; omega

/-- A [4000, 64] by [64, 32] product into a zero accumulator, at (p, j): the sum over the 64 contracted positions. -/
theorem mm64_apply {φ₁ φ₂ : FTy} (l : FVec Ideal S4000x64 φ₁) (r : FVec Ideal S64x32 φ₂) (p : Fin 4000) (j : Fin 32) :
    matmul (F := Ideal) dot_S4000x64_S64x32_S4000x32_1_0_0_1_n_n none l r (constant (F := Ideal) S4000x32 .f32 0x00000000#32) (ix2 p j)
      = ∑ k : Fin 64, l (ix2 p k) * r (ix2 k j) :=
  MatmulIdx.matmul_zero_ix2 dot_S4000x64_S64x32_S4000x32_1_0_0_1_n_n_wf none l r p j

/-- The bias row spread over the rows, read at (p, j). -/
theorem bias_apply (v : Vec Ideal S1x32 .f32) (p : Fin 4000) (j : Fin 32) :
    broadcastTo S4000x32 (shapeCast S1x32 v shapeCasts_S1x32_S1x32) broadcasts_S1x32_S4000x32 (ix2 p j)
      = v (ix2 (0 : Fin 1) j) := by
  rw [shapeCast_self]
  exact broadcastTo_1b_ab_apply v broadcasts_S1x32_S4000x32 p j

/-- A [4000, 64] block scaled row by row with a [4000, 1] column, read at (p, k). -/
theorem scaled64_apply (c : Vec Ideal S4000x1 .f32) (x : Vec Ideal S4000x64 .f32) (p : Fin 4000) (k : Fin 64) :
    mulf (F := Ideal) (φ := .f32) (shapeCast S4000x64 x shapeCasts_S4000x64_S4000x64)
        (broadcastTo S4000x64 (shapeCast S4000x1 c shapeCasts_S4000x1_S4000x1) broadcasts_S4000x1_S4000x64) (ix2 p k)
      = x (ix2 p k) * c (ix2 p (0 : Fin 1)) := by
  rw [shapeCast_self, shapeCast_self, mulf_apply]
  exact congrArg (x (ix2 p k) * ·) (broadcastTo_a1_ab_apply c broadcasts_S4000x1_S4000x64 p k)

/-- The first half of layer 1 at (p, j): two products over 64 positions and the bias. -/
theorem k0_pay3_apply (v0 : Vec Ideal S4000x1 .f32) (v4 v14 : Vec Ideal S4000x64 .f32) (v16 v18 : Vec Ideal S64x32 .f32)
    (v27 : Vec Ideal S1x32 .f32) (p : Fin 4000) (j : Fin 32) :
    k0_pay3 (F := Ideal) v0 v4 v14 v16 v18 v27 (ix2 p j)
      = (∑ k : Fin 64, (v4 (ix2 p k) * v0 (ix2 p (0 : Fin 1))) * v16 (ix2 k j)
          + ∑ k : Fin 64, v14 (ix2 p k) * v18 (ix2 k j)) + v27 (ix2 (0 : Fin 1) j) := by
  unfold k0_pay3 k0_pay2
  refine (addf_apply _ _ _).trans ?_
  refine congrArg₂ (· + ·) ((addf_apply _ _ _).trans (congrArg₂ (· + ·) ?_ ?_)) (bias_apply v27 p j)
  · refine (mm64_apply _ _ p j).trans (Finset.sum_congr rfl fun k _ => ?_)
    exact congrArg (· * v16 (ix2 k j)) (scaled64_apply v0 v4 p k)
  · exact mm64_apply _ _ p j

/-- The second half of layer 1 at (p, j), before its bias: two products over 64 positions. -/
theorem k0_pay4_apply (v2 : Vec Ideal S4000x1 .f32) (v9 v14 : Vec Ideal S4000x64 .f32) (v20 v22 : Vec Ideal S64x32 .f32)
    (p : Fin 4000) (j : Fin 32) :
    k0_pay4 (F := Ideal) v2 v9 v14 v20 v22 (ix2 p j)
      = ∑ k : Fin 64, (v9 (ix2 p k) * v2 (ix2 p (0 : Fin 1))) * v20 (ix2 k j)
          + ∑ k : Fin 64, v14 (ix2 p k) * v22 (ix2 k j) := by
  unfold k0_pay4 k0_pay2
  refine (addf_apply _ _ _).trans (congrArg₂ (· + ·) ?_ ?_)
  · refine (mm64_apply _ _ p j).trans (Finset.sum_congr rfl fun k _ => ?_)
    exact congrArg (· * v20 (ix2 k j)) (scaled64_apply v2 v9 p k)
  · exact mm64_apply _ _ p j

/-- Two [4000, 32] halves side by side, read at (p, q) with q in the left half. -/
theorem concat_left_apply (a b : FVec Ideal S4000x32 .f32) (p : Fin 4000) (q : Fin 64) (h : q.val < 32) :
    concatenate S4000x64 1 [⟨S4000x32, a⟩, ⟨S4000x32, b⟩] concatenates_S4000x32_S4000x32_S4000x64_d1 (ix2 p q)
      = a (ix2 p (⟨q.val, h⟩ : Fin 32)) :=
  concatenate_pair_apply_left (t := S4000x64) (s₁ := S4000x32) (s₂ := S4000x32) 1 a b
    concatenates_S4000x32_S4000x32_S4000x64_d1 (ix2 p q) rfl (ix2 p (⟨q.val, h⟩ : Fin 32)) (fun c => by
      match c with
      | ⟨0, _⟩ => rfl
      | ⟨1, _⟩ => rfl)

/-- Two [4000, 32] halves side by side, read at (p, q) with q in the right half. -/
theorem concat_right_apply (a b : FVec Ideal S4000x32 .f32) (p : Fin 4000) (q : Fin 64) (h : ¬ q.val < 32) :
    concatenate S4000x64 1 [⟨S4000x32, a⟩, ⟨S4000x32, b⟩] concatenates_S4000x32_S4000x32_S4000x64_d1 (ix2 p q)
      = b (ix2 p (⟨q.val - 32, by omega⟩ : Fin 32)) :=
  concatenate_pair_apply_right (t := S4000x64) (s₁ := S4000x32) (s₂ := S4000x32) 1 a b
    concatenates_S4000x32_S4000x32_S4000x64_d1 (ix2 p q) rfl rfl (ix2 p (⟨q.val - 32, by omega⟩ : Fin 32)) (fun c hc => by
      match c with
      | ⟨0, _⟩ => rfl
      | ⟨1, _⟩ => exact absurd rfl hc)
    (by show (q.val - 32) + 32 = q.val; omega)

/-- The stored block of layer 1 at (p, q): the hyperbolic tangent of the half that column q falls in. -/
theorem k0_pay1_apply (v30 v33 : FVec Ideal S4000x32 .f32) (v34 : Vec Ideal S1x32 .f32) (p : Fin 4000) (q : Fin 64) :
    k0_pay1 (F := Ideal) v30 v33 v34 (ix2 p q)
      = Ideal.tanh (if h : q.val < 32 then v30 (ix2 p (⟨q.val, h⟩ : Fin 32))
          else v33 (ix2 p (⟨q.val - 32, by omega⟩ : Fin 32)) + v34 (ix2 (0 : Fin 1) (⟨q.val - 32, by omega⟩ : Fin 32))) := by
  unfold k0_pay1
  show Ideal.tanh _ = Ideal.tanh _
  refine congrArg Ideal.tanh ?_
  by_cases h : q.val < 32
  · rw [dif_pos h]; exact concat_left_apply _ _ p q h
  · rw [dif_neg h]
    refine (concat_right_apply _ _ p q h).trans ((addf_apply _ _ _).trans ?_)
    exact congrArg (v33 _ + ·) (bias_apply v34 p _)

/-- The first kernel's stored block at (p, q) is layer 1 of the block at (p, q). -/
theorem out0_9_apply (x0 x1 x2 : Vec Ideal S4000x64 .f32) (x3 x4 : Vec Ideal S4000x1 .f32) (x5 : Vec Ideal S128x32 .f32)
    (x6 : Vec Ideal S1x32 .f32) (x7 : Vec Ideal S128x32 .f32) (x8 : Vec Ideal S1x32 .f32) (p : Fin 4000) (q : Fin 64) :
    Cert.KernelIdeal.Gen.out0_9 (F := Ideal) x0 x1 x2 x3 x4 x5 x6 x7 x8 (ix2 p q)
      = Cert.Sgcn.blockLayer1 x0 x1 x2 x3 x4 x5 x6 x7 x8 p q := by
  unfold Cert.KernelIdeal.Gen.out0_9
  rw [View.canon_unit_zero zero_off]
  simp only [View.ld_unit_zero (S := S4000x64) zero_off, View.ld_unit_zero (S := S4000x1) zero_off,
    View.ld_unit_zero (S := S1x32) zero_off]
  refine (k0_pay1_apply _ _ x8 p q).trans ?_
  unfold Cert.Sgcn.blockLayer1 Cert.Sgcn.blockHalf1
  refine congrArg Ideal.tanh ?_
  by_cases h : q.val < 32
  · rw [dif_pos h, dif_pos h]
    refine (k0_pay3_apply x3 x0 x2 _ _ x6 p _).trans ?_
    refine congrArg (· + x6 (ix2 (0 : Fin 1) (⟨q.val, h⟩ : Fin 32))) (congrArg₂ (· + ·) ?_ ?_)
    · refine Finset.sum_congr rfl fun k _ => ?_
      exact congrArg ((x0 (ix2 p k) * x3 (ix2 p (0 : Fin 1))) * ·)
        ((ld_sub_apply 0 0 x5 inb_S128x32_S64x32_0_0 k _ (by omega) (by omega)).trans
          (congrArg x5 (funext fun a => Fin.ext (by
            match a with
            | ⟨0, _⟩ => show 0 + k.val = k.val; omega
            | ⟨1, _⟩ => show 0 + q.val = q.val; omega))))
    · refine Finset.sum_congr rfl fun k _ => ?_
      exact congrArg (x2 (ix2 p k) * ·)
        ((ld_sub_apply 64 0 x5 inb_S128x32_S64x32_64_0 k _ (by omega) (by omega)).trans
          (congrArg x5 (funext fun a => Fin.ext (by
            match a with
            | ⟨0, _⟩ => rfl
            | ⟨1, _⟩ => show 0 + q.val = q.val; omega))))
  · rw [dif_neg h, dif_neg h]
    refine congrArg (· + x8 (ix2 (0 : Fin 1) (⟨q.val - 32, by omega⟩ : Fin 32))) ?_
    refine (k0_pay4_apply x4 x1 x2 _ _ p _).trans (congrArg₂ (· + ·) ?_ ?_)
    · refine Finset.sum_congr rfl fun k _ => ?_
      exact congrArg ((x1 (ix2 p k) * x4 (ix2 p (0 : Fin 1))) * ·)
        ((ld_sub_apply 0 0 x7 inb_S128x32_S64x32_0_0 k _ (by omega) (by omega)).trans
          (congrArg x7 (funext fun a => Fin.ext (by
            match a with
            | ⟨0, _⟩ => show 0 + k.val = k.val; omega
            | ⟨1, _⟩ => show 0 + (q.val - 32) = q.val - 32; omega))))
    · refine Finset.sum_congr rfl fun k _ => ?_
      exact congrArg (x2 (ix2 p k) * ·)
        ((ld_sub_apply 64 0 x7 inb_S128x32_S64x32_64_0 k _ (by omega) (by omega)).trans
          (congrArg x7 (funext fun a => Fin.ext (by
            match a with
            | ⟨0, _⟩ => rfl
            | ⟨1, _⟩ => show 0 + (q.val - 32) = q.val - 32; omega))))

/-! ## Layer 2: three products over 32 positions per half -/

/-- A [4000, 32] by [32, 32] product into a zero accumulator, at (p, j): the sum over the 32 contracted positions. -/
theorem mm32_apply {φ₁ φ₂ : FTy} (l : FVec Ideal S4000x32 φ₁) (r : FVec Ideal S32x32 φ₂) (p : Fin 4000) (j : Fin 32) :
    matmul (F := Ideal) dot_S4000x32_S32x32_S4000x32_1_0_0_1_n_n none l r (constant (F := Ideal) S4000x32 .f32 0x00000000#32) (ix2 p j)
      = ∑ k : Fin 32, l (ix2 p k) * r (ix2 k j) :=
  MatmulIdx.matmul_zero_ix2 dot_S4000x32_S32x32_S4000x32_1_0_0_1_n_n_wf none l r p j

/-- A [4000, 32] slice scaled row by row with a [4000, 1] column, read at (p, k). -/
theorem scaled32_apply (c : Vec Ideal S4000x1 .f32) (x : Vec Ideal S4000x32 .f32) (p : Fin 4000) (k : Fin 32) :
    mulf (F := Ideal) (φ := .f32) (shapeCast S4000x32 x shapeCasts_S4000x32_S4000x32)
        (broadcastTo S4000x32 (shapeCast S4000x1 c shapeCasts_S4000x1_S4000x1) broadcasts_S4000x1_S4000x32) (ix2 p k)
      = x (ix2 p k) * c (ix2 p (0 : Fin 1)) := by
  rw [shapeCast_self, shapeCast_self, mulf_apply]
  exact congrArg (x (ix2 p k) * ·) (broadcastTo_a1_ab_apply c broadcasts_S4000x1_S4000x32 p k)

theorem k1_pay4_apply (v0 : Vec Ideal S4000x1 .f32) (v4 : Vec Ideal S4000x32 .f32) (p : Fin 4000) (k : Fin 32) :
    k1_pay4 (F := Ideal) v0 v4 (ix2 p k) = v4 (ix2 p k) * v0 (ix2 p (0 : Fin 1)) := by
  unfold k1_pay4 k1_pay2; exact scaled32_apply v0 v4 p k

theorem k1_pay5_apply (v0 : Vec Ideal S4000x1 .f32) (v9 : Vec Ideal S4000x32 .f32) (p : Fin 4000) (k : Fin 32) :
    k1_pay5 (F := Ideal) v0 v9 (ix2 p k) = v9 (ix2 p k) * v0 (ix2 p (0 : Fin 1)) := by
  unfold k1_pay5 k1_pay2; exact scaled32_apply v0 v9 p k

theorem k1_pay6_apply (v2 : Vec Ideal S4000x1 .f32) (v14 : Vec Ideal S4000x32 .f32) (p : Fin 4000) (k : Fin 32) :
    k1_pay6 (F := Ideal) v2 v14 (ix2 p k) = v14 (ix2 p k) * v2 (ix2 p (0 : Fin 1)) := by
  unfold k1_pay6 k1_pay3; exact scaled32_apply v2 v14 p k

theorem k1_pay7_apply (v2 : Vec Ideal S4000x1 .f32) (v19 : Vec Ideal S4000x32 .f32) (p : Fin 4000) (k : Fin 32) :
    k1_pay7 (F := Ideal) v2 v19 (ix2 p k) = v19 (ix2 p k) * v2 (ix2 p (0 : Fin 1)) := by
  unfold k1_pay7 k1_pay3; exact scaled32_apply v2 v19 p k

theorem k1_pay8_apply (v : Vec Ideal S4000x32 .f32) (p : Fin 4000) (k : Fin 32) :
    k1_pay8 (F := Ideal) v (ix2 p k) = v (ix2 p k) := by
  unfold k1_pay8
  show shapeCast S4000x32 v shapeCasts_S4000x32_S4000x32 (ix2 p k) = v (ix2 p k)
  rw [shapeCast_self]

theorem k1_pay9_apply (v : Vec Ideal S4000x32 .f32) (p : Fin 4000) (k : Fin 32) :
    k1_pay9 (F := Ideal) v (ix2 p k) = v (ix2 p k) := by
  unfold k1_pay9
  show shapeCast S4000x32 v shapeCasts_S4000x32_S4000x32 (ix2 p k) = v (ix2 p k)
  rw [shapeCast_self]

/-- The stored block of layer 2 at (p, q): the hyperbolic tangent of the half that column q falls in, each half three
    products over 32 positions and a bias. -/
theorem k1_pay1_apply (v8 v13 v18 v23 v26 v29 : FVec Ideal S4000x32 .bf16) (v31 v33 v35 : FVec Ideal S32x32 .bf16)
    (v36 v38 v40 : Vec Ideal S32x32 .f32) (v47 v56 : Vec Ideal S1x32 .f32) (p : Fin 4000) (q : Fin 64) :
    k1_pay1 (F := Ideal) v8 v13 v18 v23 v26 v29 v31 v33 v35 v36 v38 v40 v47 v56 (ix2 p q)
      = Ideal.tanh (if h : q.val < 32 then
          ((∑ k : Fin 32, v8 (ix2 p k) * v31 (ix2 k (⟨q.val, h⟩ : Fin 32))
            + ∑ k : Fin 32, v23 (ix2 p k) * v33 (ix2 k (⟨q.val, h⟩ : Fin 32)))
            + ∑ k : Fin 32, v26 (ix2 p k) * v35 (ix2 k (⟨q.val, h⟩ : Fin 32)))
            + v47 (ix2 (0 : Fin 1) (⟨q.val, h⟩ : Fin 32))
        else
          ((∑ k : Fin 32, v13 (ix2 p k) * v36 (ix2 k (⟨q.val - 32, by omega⟩ : Fin 32))
            + ∑ k : Fin 32, v18 (ix2 p k) * v38 (ix2 k (⟨q.val - 32, by omega⟩ : Fin 32)))
            + ∑ k : Fin 32, v29 (ix2 p k) * v40 (ix2 k (⟨q.val - 32, by omega⟩ : Fin 32)))
            + v56 (ix2 (0 : Fin 1) (⟨q.val - 32, by omega⟩ : Fin 32))) := by
  unfold k1_pay1
  show Ideal.tanh _ = Ideal.tanh _
  refine congrArg Ideal.tanh ?_
  by_cases h : q.val < 32
  · rw [dif_pos h]
    refine (concat_left_apply _ _ p q h).trans ((addf_apply _ _ _).trans ?_)
    refine congrArg₂ (· + ·) ((addf_apply _ _ _).trans (congrArg₂ (· + ·)
      ((addf_apply _ _ _).trans (congrArg₂ (· + ·) ?_ ?_)) ?_)) (bias_apply v47 p _)
    · exact mm32_apply v8 v31 p _
    · exact mm32_apply v23 v33 p _
    · exact mm32_apply v26 v35 p _
  · rw [dif_neg h]
    refine (concat_right_apply _ _ p q h).trans ((addf_apply _ _ _).trans ?_)
    refine congrArg₂ (· + ·) ((addf_apply _ _ _).trans (congrArg₂ (· + ·)
      ((addf_apply _ _ _).trans (congrArg₂ (· + ·) ?_ ?_)) ?_)) (bias_apply v56 p _)
    · exact mm32_apply v13 _ p _
    · exact mm32_apply v18 _ p _
    · exact mm32_apply v29 _ p _

/-- A load through a unit-stride sub-rectangle at offsets (o0, o1), read at (i, j), is the buffer at any (i', j') whose
    coordinates are o0 + i and o1 + j. -/
theorem ld_sub_eq {Val : EltTy → Type} {e : EltTy} {A B A' B' : Nat} (o0 o1 : Nat)
    (X : (⟨2, ![A, B]⟩ : Shape).Idx → Val e)
    (inb : ∀ a, (![o0, o1] : Fin 2 → Nat) a + (⟨2, ![A', B']⟩ : Shape).size a ≤ (⟨2, ![A, B]⟩ : Shape).size a)
    (i : Fin A') (j : Fin B') (i' : Fin A) (j' : Fin B) (hi : i'.val = o0 + i.val) (hj : j'.val = o1 + j.val) :
    View.ld X (Rect.unit (s := ⟨2, ![A, B]⟩) ![o0, o1] (⟨2, ![A', B']⟩ : Shape).size inb) (ix2 i j) = X (ix2 i' j') := by
  show X _ = X _
  refine congrArg X (funext fun a => Fin.ext ?_)
  match a with
  | ⟨0, _⟩ => show o0 + 1 * i.val = i'.val; omega
  | ⟨1, _⟩ => show o1 + 1 * j.val = j'.val; omega

/-- The left 32 columns of a [4000, 64] block. -/
theorem ld_lo (x : Vec Ideal S4000x64 .f32) (p : Fin 4000) (k : Fin 32) :
    View.ld x r1_1 (ix2 p k) = x (ix2 p (Cert.Sgcn.lo k)) :=
  ld_sub_eq 0 0 x inb_S4000x64_S4000x32_0_0 p k p (Cert.Sgcn.lo k) (by omega) (by show k.val = 0 + k.val; omega)

/-- The right 32 columns of a [4000, 64] block. -/
theorem ld_hi (x : Vec Ideal S4000x64 .f32) (p : Fin 4000) (k : Fin 32) :
    View.ld x r1_2 (ix2 p k) = x (ix2 p (Cert.Sgcn.hi k)) :=
  ld_sub_eq 0 32 x inb_S4000x64_S4000x32_0_32 p k p (Cert.Sgcn.hi k) (by omega) (by show 32 + k.val = 32 + k.val; rfl)

/-- Rows 0..31, 32..63 and 64..95 of a [96, 32] weight. -/
theorem ld_w0 (w : Vec Ideal S96x32 .f32) (k j : Fin 32) :
    View.ld w r1_3 (ix2 k j) = w (ix2 (⟨k.val, by omega⟩ : Fin 96) j) :=
  ld_sub_eq 0 0 w inb_S96x32_S32x32_0_0 k j _ j (by show k.val = 0 + k.val; omega) (by omega)

theorem ld_w1 (w : Vec Ideal S96x32 .f32) (k j : Fin 32) :
    View.ld w r1_4 (ix2 k j) = w (ix2 (⟨32 + k.val, by omega⟩ : Fin 96) j) :=
  ld_sub_eq 32 0 w inb_S96x32_S32x32_32_0 k j _ j rfl (by omega)

theorem ld_w2 (w : Vec Ideal S96x32 .f32) (k j : Fin 32) :
    View.ld w r1_5 (ix2 k j) = w (ix2 (⟨64 + k.val, by omega⟩ : Fin 96) j) :=
  ld_sub_eq 64 0 w inb_S96x32_S32x32_64_0 k j _ j rfl (by omega)

/-- A weight slice rounded to the narrower format is itself over the extended reals. -/
theorem k1_pay10_apply (v : Vec Ideal S32x32 .f32) (i : S32x32.Idx) : k1_pay10 (F := Ideal) v i = v i := rfl
theorem k1_pay11_apply (v : Vec Ideal S32x32 .f32) (i : S32x32.Idx) : k1_pay11 (F := Ideal) v i = v i := rfl
theorem k1_pay12_apply (v : Vec Ideal S32x32 .f32) (i : S32x32.Idx) : k1_pay12 (F := Ideal) v i = v i := rfl

/-- The second kernel's stored block at (p, q) is layer 2 of the block at (p, q). -/
theorem out1_9_apply (x0 x1 x2 : Vec Ideal S4000x64 .f32) (x3 x4 : Vec Ideal S4000x1 .f32) (x5 : Vec Ideal S96x32 .f32)
    (x6 : Vec Ideal S1x32 .f32) (x7 : Vec Ideal S96x32 .f32) (x8 : Vec Ideal S1x32 .f32) (p : Fin 4000) (q : Fin 64) :
    Cert.KernelIdeal.Gen.out1_9 (F := Ideal) x0 x1 x2 x3 x4 x5 x6 x7 x8 (ix2 p q)
      = Cert.Sgcn.blockLayer2 x0 x1 x2 x3 x4 x5 x6 x7 x8 p q := by
  unfold Cert.KernelIdeal.Gen.out1_9
  rw [View.canon_unit_zero zero_off]
  simp only [View.ld_unit_zero (S := S4000x1) zero_off, View.ld_unit_zero (S := S1x32) zero_off]
  refine (k1_pay1_apply _ _ _ _ _ _ _ _ _ _ _ _ x6 x8 p q).trans ?_
  unfold Cert.Sgcn.blockLayer2 Cert.Sgcn.blockHalf2
  refine congrArg Ideal.tanh ?_
  by_cases h : q.val < 32
  · rw [dif_pos h, dif_pos h]
    refine congrArg (· + x6 (ix2 (0 : Fin 1) (⟨q.val, h⟩ : Fin 32)))
      (congrArg₂ (· + ·) (congrArg₂ (· + ·) ?_ ?_) ?_)
    · refine Finset.sum_congr rfl fun k _ => congrArg₂ (· * ·) ?_ ((k1_pay10_apply _ _).trans (ld_w0 x5 k _))
      exact (k1_pay4_apply x3 _ p k).trans (congrArg (· * x3 (ix2 p (0 : Fin 1))) (ld_lo x0 p k))
    · refine Finset.sum_congr rfl fun k _ => congrArg₂ (· * ·) ?_ ((k1_pay11_apply _ _).trans (ld_w1 x5 k _))
      exact (k1_pay7_apply x4 _ p k).trans (congrArg (· * x4 (ix2 p (0 : Fin 1))) (ld_hi x1 p k))
    · refine Finset.sum_congr rfl fun k _ => congrArg₂ (· * ·) ?_ ((k1_pay12_apply _ _).trans (ld_w2 x5 k _))
      exact (k1_pay8_apply _ p k).trans (ld_lo x2 p k)
  · rw [dif_neg h, dif_neg h]
    refine congrArg (· + x8 (ix2 (0 : Fin 1) (⟨q.val - 32, by omega⟩ : Fin 32)))
      (congrArg₂ (· + ·) (congrArg₂ (· + ·) ?_ ?_) ?_)
    · refine Finset.sum_congr rfl fun k _ => congrArg₂ (· * ·) ?_ (ld_w0 x7 k _)
      exact (k1_pay5_apply x3 _ p k).trans (congrArg (· * x3 (ix2 p (0 : Fin 1))) (ld_hi x0 p k))
    · refine Finset.sum_congr rfl fun k _ => congrArg₂ (· * ·) ?_ (ld_w1 x7 k _)
      exact (k1_pay6_apply x4 _ p k).trans (congrArg (· * x4 (ix2 p (0 : Fin 1))) (ld_lo x1 p k))
    · refine Finset.sum_congr rfl fun k _ => congrArg₂ (· * ·) ?_ (ld_w2 x7 k _)
      exact (k1_pay9_apply _ p k).trans (ld_hi x2 p k)

end Cert.Sgcn.Bodies

end
-- ==== Proof.KerHost.lean ====
/-
  The host side of the kernel program, named: the two integer columns of an edge list (as in the reference: row 0 the
  sources, a negative one moved up by the number of nodes; row 1 the targets), the rows of a table summed over an
  edge list (a gather at the sources added into a zero table at the targets), the reciprocal of the clamped number
  of incoming edges as a column, and a bias vector laid out as a row.
-/
import proofs.«112820_j33543694581992_2_alg».proof.Proof.Gen.KernelIdeal
import Idealize.ShloMosaic.PureOps.Ideal

noncomputable section

namespace Cert.Sgcn.Ker

open Idealize.ShloMosaic Cert.KernelIdeal Cert.KernelIdeal.Gen

/-- Row `0` of an edge list (the sources), as a vector. -/
def srcRowVec (e : IVec S2x1600000 32) : IVec S1600000 32 :=
  shapeCast _ (extractStridedSlice S1x1600000 ![0, 0] e slices_S2x1600000_S1x1600000_0_0) shapeCasts_S1x1600000_S1600000

/-- The source column: a negative source moved up by 100000, then laid out as a column. -/
def srcCol (e : IVec S2x1600000 32) : IVec S1600000x1 32 :=
  broadcastInDim S1600000x1 ![0] bcast_S1600000_S1600000x1_0
    (select (cmpi .slt (srcRowVec e) (broadcastInDim S1600000 ![] bcast_S_S1600000 (constantI S_ 32 0#32)))
      (addi (srcRowVec e) (broadcastInDim S1600000 ![] bcast_S_S1600000 (constantI S_ 32 100000#32))) (srcRowVec e))

/-- The target column: row `1` of the list laid out as a column. -/
def dstCol (e : IVec S2x1600000 32) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

/-- The rows of `T` the edges read, added into a zero table at the edges' targets. -/
def rawSum (T : S100000x64.Idx → EReal) (s d : IVec S1600000x1 32) : S100000x64.Idx → EReal :=
  Host.scatterAdd (F := Ideal) scatter_S100000x64_S1600000x1_S1600000x64_1_0_0_1
    (broadcastInDim S100000x64 ![] bcast_S_S100000x64 (constant S_ .f32 0x00000000#32)) d
    (Host.gather gather_S100000x64_S1600000x1_S1600000x64_1_0_n_n_0_1_164 T s)

/-- One over the number of edges into each node, that number clamped below at one: a `[100000, 1]` column. -/
def recip (d : IVec S1600000x1 32) : S100000x1.Idx → EReal :=
  Host.divf (F := Ideal) (broadcastInDim S100000x1 ![] bcast_S_S100000x1 (constant S_ .f32 0x3F800000#32))
    (maximumf (shapeCast S100000x1 (Host.scatterAdd (F := Ideal) scatter_S100000_S1600000x1_S1600000_n_0_0_1
        (broadcastInDim S100000 ![] bcast_S_S100000 (constant S_ .f32 0x00000000#32)) d
        (broadcastInDim S1600000 ![] bcast_S_S1600000 (constant S_ .f32 0x3F800000#32))) shapeCasts_S100000_S100000x1)
      (broadcastInDim S100000x1 ![] bcast_S_S100000x1 (constant S_ .f32 0x3F800000#32)))

/-- A bias vector as a `[1, 32]` row. -/
def biasRow (b : S32.Idx → EReal) : S1x32.Idx → EReal := shapeCast S1x32 b shapeCasts_S32_S1x32

end Cert.Sgcn.Ker

end
-- ==== Proof.KerValue.lean ====
/-
  The idealized kernel program's result as a function of its launch arrays.

  Reading the fold of the four segments backwards: the result buffer is the second kernel's output array, which is
  layer 2 (in the array form, with reciprocal columns and bias rows) of the nine arrays that kernel finds; of those,
  the two edge sums are the host's sums of the FIRST kernel's output over the two edge lists, the hidden array is
  that output itself, the reciprocal columns are the ones computed before the first kernel, and weights and biases are
  launch arrays. The first kernel's output is layer 1 of the sums of the features over the two edge lists, the
  features, the same reciprocal columns and the first layer's weights and biases.
-/
import proofs.«112820_j33543694581992_2_alg».proof.Proof.KRun
import proofs.«112820_j33543694581992_2_alg».proof.Proof.Region0
import proofs.«112820_j33543694581992_2_alg».proof.Proof.Region1
import proofs.«112820_j33543694581992_2_alg».proof.Proof.Bodies
import proofs.«112820_j33543694581992_2_alg».proof.Proof.KerHost
import Idealize.ShloMosaic.Lib.StableHlo.Run

set_option maxRecDepth 16384

noncomputable section

namespace Cert.Sgcn.Ker

open Cert.KernelIdeal Cert.KernelIdeal.Gen Cert.Sgcn
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-! ## The launch arrays and what the host computes from them, by name -/

/-- The first kernel's output: layer 1 of the launch arrays. -/
def kerHidden (c : Dev nD) : S100000x64.Idx → EReal :=
  arrLayer1 (rawSum (m ((c : Thread nD τ).loc main_arg0)) (srcCol (m ((c : Thread nD τ).loc main_arg1))) (dstCol (m ((c : Thread nD τ).loc main_arg1)))) (rawSum (m ((c : Thread nD τ).loc main_arg0)) (srcCol (m ((c : Thread nD τ).loc main_arg2))) (dstCol (m ((c : Thread nD τ).loc main_arg2))))
    (m ((c : Thread nD τ).loc main_arg0)) (recip (dstCol (m ((c : Thread nD τ).loc main_arg1)))) (recip (dstCol (m ((c : Thread nD τ).loc main_arg2))))
    (m ((c : Thread nD τ).loc main_arg3)) (biasRow (m ((c : Thread nD τ).loc main_arg4))) (m ((c : Thread nD τ).loc main_arg5)) (biasRow (m ((c : Thread nD τ).loc main_arg6)))

/-- The second kernel's output: layer 2 of the first kernel's output and the launch arrays. -/
def kerOut (c : Dev nD) : S100000x64.Idx → EReal :=
  arrLayer2 (rawSum (kerHidden m c) (srcCol (m ((c : Thread nD τ).loc main_arg1))) (dstCol (m ((c : Thread nD τ).loc main_arg1)))) (rawSum (kerHidden m c) (srcCol (m ((c : Thread nD τ).loc main_arg2))) (dstCol (m ((c : Thread nD τ).loc main_arg2))))
    (kerHidden m c) (recip (dstCol (m ((c : Thread nD τ).loc main_arg1)))) (recip (dstCol (m ((c : Thread nD τ).loc main_arg2))))
    (m ((c : Thread nD τ).loc main_arg7)) (biasRow (m ((c : Thread nD τ).loc main_arg8))) (m ((c : Thread nD τ).loc main_arg9)) (biasRow (m ((c : Thread nD τ).loc main_arg10)))

/-! ## After the first stretch of host operations -/

set_option maxHeartbeats 4000000 in
theorem W1_arg0 (c : Dev nD) : W1 m ρ c (Proc.devRef .tc main_arg0) = m ((c : Thread nD τ).loc main_arg0) := by
  show StableHlo.after hostOps0 _ (Proc.devRef .tc _) = _
  simp only [hostOps0]
  after_results_simp

set_option maxHeartbeats 4000000 in
theorem W1_arg1 (c : Dev nD) : W1 m ρ c (Proc.devRef .tc main_arg1) = m ((c : Thread nD τ).loc main_arg1) := by
  show StableHlo.after hostOps0 _ (Proc.devRef .tc _) = _
  simp only [hostOps0]
  after_results_simp

set_option maxHeartbeats 4000000 in
theorem W1_arg2 (c : Dev nD) : W1 m ρ c (Proc.devRef .tc main_arg2) = m ((c : Thread nD τ).loc main_arg2) := by
  show StableHlo.after hostOps0 _ (Proc.devRef .tc _) = _
  simp only [hostOps0]
  after_results_simp

set_option maxHeartbeats 4000000 in
theorem W1_arg3 (c : Dev nD) : W1 m ρ c (Proc.devRef .tc main_arg3) = m ((c : Thread nD τ).loc main_arg3) := by
  show StableHlo.after hostOps0 _ (Proc.devRef .tc _) = _
  simp only [hostOps0]
  after_results_simp

set_option maxHeartbeats 4000000 in
theorem W1_arg4 (c : Dev nD) : W1 m ρ c (Proc.devRef .tc main_arg4) = m ((c : Thread nD τ).loc main_arg4) := by
  show StableHlo.after hostOps0 _ (Proc.devRef .tc _) = _
  simp only [hostOps0]
  after_results_simp

set_option maxHeartbeats 4000000 in
theorem W1_arg5 (c : Dev nD) : W1 m ρ c (Proc.devRef .tc main_arg5) = m ((c : Thread nD τ).loc main_arg5) := by
  show StableHlo.after hostOps0 _ (Proc.devRef .tc _) = _
  simp only [hostOps0]
  after_results_simp

set_option maxHeartbeats 4000000 in
theorem W1_arg6 (c : Dev nD) : W1 m ρ c (Proc.devRef .tc main_arg6) = m ((c : Thread nD τ).loc main_arg6) := by
  show StableHlo.after hostOps0 _ (Proc.devRef .tc _) = _
  simp only [hostOps0]
  after_results_simp

set_option maxHeartbeats 4000000 in
theorem W1_arg7 (c : Dev nD) : W1 m ρ c (Proc.devRef .tc main_arg7) = m ((c : Thread nD τ).loc main_arg7) := by
  show StableHlo.after hostOps0 _ (Proc.devRef .tc _) = _
  simp only [hostOps0]
  after_results_simp

set_option maxHeartbeats 4000000 in
theorem W1_arg8 (c : Dev nD) : W1 m ρ c (Proc.devRef .tc main_arg8) = m ((c : Thread nD τ).loc main_arg8) := by
  show StableHlo.after hostOps0 _ (Proc.devRef .tc _) = _
  simp only [hostOps0]
  after_results_simp

set_option maxHeartbeats 4000000 in
theorem W1_arg9 (c : Dev nD) : W1 m ρ c (Proc.devRef .tc main_arg9) = m ((c : Thread nD τ).loc main_arg9) := by
  show StableHlo.after hostOps0 _ (Proc.devRef .tc _) = _
  simp only [hostOps0]
  after_results_simp

set_option maxHeartbeats 4000000 in
theorem W1_arg10 (c : Dev nD) : W1 m ρ c (Proc.devRef .tc main_arg10) = m ((c : Thread nD τ).loc main_arg10) := by
  show StableHlo.after hostOps0 _ (Proc.devRef .tc _) = _
  simp only [hostOps0]
  after_results_simp

set_option maxHeartbeats 4000000 in
theorem W1_v35 (c : Dev nD) : (W1 m ρ c (Proc.devRef .tc main_v35) : S100000x64.Idx → EReal) = rawSum (m ((c : Thread nD τ).loc main_arg0)) (srcCol (m ((c : Thread nD τ).loc main_arg1))) (dstCol (m ((c : Thread nD τ).loc main_arg1))) := by
  show StableHlo.after hostOps0 _ (Proc.devRef .tc _) = _
  simp only [hostOps0]
  after_results_simp
  rfl

set_option maxHeartbeats 4000000 in
theorem W1_v49 (c : Dev nD) : (W1 m ρ c (Proc.devRef .tc main_v49) : S100000x64.Idx → EReal) = rawSum (m ((c : Thread nD τ).loc main_arg0)) (srcCol (m ((c : Thread nD τ).loc main_arg2))) (dstCol (m ((c : Thread nD τ).loc main_arg2))) := by
  show StableHlo.after hostOps0 _ (Proc.devRef .tc _) = _
  simp only [hostOps0]
  after_results_simp
  rfl

set_option maxHeartbeats 4000000 in
theorem W1_v17 (c : Dev nD) : (W1 m ρ c (Proc.devRef .tc main_v17) : S100000x1.Idx → EReal) = recip (dstCol (m ((c : Thread nD τ).loc main_arg1))) := by
  show StableHlo.after hostOps0 _ (Proc.devRef .tc _) = _
  simp only [hostOps0]
  after_results_simp
  rfl

set_option maxHeartbeats 4000000 in
theorem W1_v21 (c : Dev nD) : (W1 m ρ c (Proc.devRef .tc main_v21) : S100000x1.Idx → EReal) = recip (dstCol (m ((c : Thread nD τ).loc main_arg2))) := by
  show StableHlo.after hostOps0 _ (Proc.devRef .tc _) = _
  simp only [hostOps0]
  after_results_simp
  rfl

set_option maxHeartbeats 4000000 in
theorem W1_v50 (c : Dev nD) : (W1 m ρ c (Proc.devRef .tc main_v50) : S1x32.Idx → EReal) = biasRow (m ((c : Thread nD τ).loc main_arg4)) := by
  show StableHlo.after hostOps0 _ (Proc.devRef .tc _) = _
  simp only [hostOps0]
  after_results_simp
  rfl

set_option maxHeartbeats 4000000 in
theorem W1_v51 (c : Dev nD) : (W1 m ρ c (Proc.devRef .tc main_v51) : S1x32.Idx → EReal) = biasRow (m ((c : Thread nD τ).loc main_arg6)) := by
  show StableHlo.after hostOps0 _ (Proc.devRef .tc _) = _
  simp only [hostOps0]
  after_results_simp
  rfl

/-! ## After the first kernel -/

/-- The first kernel leaves layer 1 of the launch arrays in its output array. -/
theorem W2_v52 (c : Dev nD) : (W2 m ρ c (Proc.devRef .tc main_v52) : S100000x64.Idx → EReal) = kerHidden m c := by
  refine ((W2_arr m ρ c 9).trans (Ker0.final (V1 m ρ) Bodies.out0_9_apply c)).trans ?_
  show arrLayer1 (W1 m ρ c (Proc.devRef .tc main_v35)) (W1 m ρ c (Proc.devRef .tc main_v49)) (W1 m ρ c (Proc.devRef .tc main_arg0))
      (W1 m ρ c (Proc.devRef .tc main_v17)) (W1 m ρ c (Proc.devRef .tc main_v21)) (W1 m ρ c (Proc.devRef .tc main_arg3))
      (W1 m ρ c (Proc.devRef .tc main_v50)) (W1 m ρ c (Proc.devRef .tc main_arg5)) (W1 m ρ c (Proc.devRef .tc main_v51)) = _
  rw [W1_v35, W1_v49, W1_arg0, W1_v17, W1_v21, W1_arg3, W1_v50, W1_arg5, W1_v51]
  rfl

/-- An input array of the first kernel is as it was before the kernel. -/
theorem W2_v17 (c : Dev nD) : (W2 m ρ c (Proc.devRef .tc main_v17) : S100000x1.Idx → EReal) = recip (dstCol (m ((c : Thread nD τ).loc main_arg1))) :=
  ((W2_arr m ρ c 3).trans (((dat0 (V1 m ρ) c).arrAt_in 3 rfl _).trans (A_eq0 (V1 m ρ) c 3))).trans (W1_v17 m ρ c)
theorem W2_v21 (c : Dev nD) : (W2 m ρ c (Proc.devRef .tc main_v21) : S100000x1.Idx → EReal) = recip (dstCol (m ((c : Thread nD τ).loc main_arg2))) :=
  ((W2_arr m ρ c 4).trans (((dat0 (V1 m ρ) c).arrAt_in 4 rfl _).trans (A_eq0 (V1 m ρ) c 4))).trans (W1_v21 m ρ c)

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## After the second stretch of host operations -/

set_option maxHeartbeats 4000000 in
theorem W3_v66 (c : Dev nD) : (W3 m ρ c (Proc.devRef .tc main_v66) : S100000x64.Idx → EReal) = rawSum (W2 m ρ c (Proc.devRef .tc main_v52)) (srcCol (W2 m ρ c (Proc.devRef .tc main_arg1))) (dstCol (W2 m ρ c (Proc.devRef .tc main_arg1))) := by
  show StableHlo.after hostOps1 _ (Proc.devRef .tc _) = _
  simp only [hostOps1]
  after_results_simp
  rfl

set_option maxHeartbeats 4000000 in
theorem W3_v80 (c : Dev nD) : (W3 m ρ c (Proc.devRef .tc main_v80) : S100000x64.Idx → EReal) = rawSum (W2 m ρ c (Proc.devRef .tc main_v52)) (srcCol (W2 m ρ c (Proc.devRef .tc main_arg2))) (dstCol (W2 m ρ c (Proc.devRef .tc main_arg2))) := by
  show StableHlo.after hostOps1 _ (Proc.devRef .tc _) = _
  simp only [hostOps1]
  after_results_simp
  rfl

set_option maxHeartbeats 4000000 in
theorem W3_v81 (c : Dev nD) : (W3 m ρ c (Proc.devRef .tc main_v81) : S1x32.Idx → EReal) = biasRow (W2 m ρ c (Proc.devRef .tc main_arg8)) := by
  show StableHlo.after hostOps1 _ (Proc.devRef .tc _) = _
  simp only [hostOps1]
  after_results_simp
  rfl

set_option maxHeartbeats 4000000 in
theorem W3_v82 (c : Dev nD) : (W3 m ρ c (Proc.devRef .tc main_v82) : S1x32.Idx → EReal) = biasRow (W2 m ρ c (Proc.devRef .tc main_arg10)) := by
  show StableHlo.after hostOps1 _ (Proc.devRef .tc _) = _
  simp only [hostOps1]
  after_results_simp
  rfl

set_option maxHeartbeats 4000000 in
theorem W3_v52 (c : Dev nD) : W3 m ρ c (Proc.devRef .tc main_v52) = W2 m ρ c (Proc.devRef .tc main_v52) := by
  show StableHlo.after hostOps1 _ (Proc.devRef .tc _) = _
  simp only [hostOps1]
  after_results_simp

set_option maxHeartbeats 4000000 in
theorem W3_v17 (c : Dev nD) : W3 m ρ c (Proc.devRef .tc main_v17) = W2 m ρ c (Proc.devRef .tc main_v17) := by
  show StableHlo.after hostOps1 _ (Proc.devRef .tc _) = _
  simp only [hostOps1]
  after_results_simp

set_option maxHeartbeats 4000000 in
theorem W3_v21 (c : Dev nD) : W3 m ρ c (Proc.devRef .tc main_v21) = W2 m ρ c (Proc.devRef .tc main_v21) := by
  show StableHlo.after hostOps1 _ (Proc.devRef .tc _) = _
  simp only [hostOps1]
  after_results_simp

set_option maxHeartbeats 4000000 in
theorem W3_arg7 (c : Dev nD) : W3 m ρ c (Proc.devRef .tc main_arg7) = W2 m ρ c (Proc.devRef .tc main_arg7) := by
  show StableHlo.after hostOps1 _ (Proc.devRef .tc _) = _
  simp only [hostOps1]
  after_results_simp

set_option maxHeartbeats 4000000 in
theorem W3_arg9 (c : Dev nD) : W3 m ρ c (Proc.devRef .tc main_arg9) = W2 m ρ c (Proc.devRef .tc main_arg9) := by
  show StableHlo.after hostOps1 _ (Proc.devRef .tc _) = _
  simp only [hostOps1]
  after_results_simp

/-! ## The result -/

/-- The result buffer after the run is layer 2 of layer 1 of the launch arrays, in the array form. -/
theorem value (c : Dev nD) : (W4 m ρ c (Proc.devRef .tc main_v83) : S100000x64.Idx → EReal) = kerOut m c := by
  refine ((W4_arr m ρ c 9).trans (Ker1.final (V3 m ρ) Bodies.out1_9_apply c)).trans ?_
  show arrLayer2 (W3 m ρ c (Proc.devRef .tc main_v66)) (W3 m ρ c (Proc.devRef .tc main_v80)) (W3 m ρ c (Proc.devRef .tc main_v52))
      (W3 m ρ c (Proc.devRef .tc main_v17)) (W3 m ρ c (Proc.devRef .tc main_v21)) (W3 m ρ c (Proc.devRef .tc main_arg7))
      (W3 m ρ c (Proc.devRef .tc main_v81)) (W3 m ρ c (Proc.devRef .tc main_arg9)) (W3 m ρ c (Proc.devRef .tc main_v82)) = _
  rw [W3_v66, W3_v80, W3_v52, W3_v17, W3_v21, W3_arg7, W3_v81, W3_arg9, W3_v82,
    W2_v52, W2_v17, W2_v21, W2_arg1, W2_arg2, W2_arg7, W2_arg8, W2_arg9, W2_arg10]
  rfl

end Cert.Sgcn.Ker

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.EdgeRead.lean ====
/-
  The host's edge aggregation read at an index.

  Gathering the table rows the edges read and adding them into a zero table at the edges' targets leaves, at node `v`
  and column `k`, the sum over the edges into `v` of column `k` of the row each edge reads: `Cert.Sgcn.edgeSum`. Adding
  a one per edge into a zero vector leaves the number of edges into `v`: `Cert.Sgcn.inDeg`. Both for dimension
  numbers given as a variable equal to the plain row (resp. vector) scatter and gather.

  Every step that holds by unfolding a definition is stated over abstract shapes, where there is nothing to
  evaluate; the steps at the real extents (1600000 edges) are chained as stated, never compared by unfolding.
-/
import proofs.«112820_j33543694581992_2_alg».proof.Proof.Spec
import proofs.«112820_j33543694581992_2_alg».proof.Proof.LibEdgeIndex
import Idealize.ShloMosaic.Lib.Pipeline.Value

noncomputable section

open scoped BigOperators

namespace Cert.Sgcn

open Idealize.ShloMosaic Idealize.ShloMosaic.ValueIdx Idealize.ShloMosaic.EdgeIndex

/-- A scalar float literal broadcast to any shape reads the literal's value at every index. -/
theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b :=
  broadcastInDim_apply _ h _ i (fun a => a.elim0) (fun a => a.elim0)

/-- Over the extended reals the host's accumulating scatter is the exact sum. -/
theorem host_scatterAdd_eq {s si u : Shape} {w : Nat} (dd : ScatterDims s si u) (x : s.Idx → EReal) (idx : IVec si w)
    (upd : u.Idx → EReal) (j : s.Idx) :
    Host.scatterAdd (F := Ideal) (φ := .f32) dd x idx upd j = Ideal.hostScatterAdd dd x idx upd j := rfl

/-- Rows gathered at the source column and added into a zero table at the target column: the sum over the edges
    into `v` of column `k` of the row each edge reads. -/
theorem scatter_gather_apply {D : Nat}
    (dS : ScatterDims ⟨2, ![100000, D]⟩ ⟨2, ![1600000, 1]⟩ ⟨2, ![1600000, D]⟩)
    (wfS : ScatterDims.WF ⟨2, ![100000, D]⟩ ⟨2, ![1600000, 1]⟩ ⟨2, ![1600000, D]⟩ [1] [0] [0] 1)
    (hS : dS = rowScatterDims 100000 1600000 D wfS)
    (dG : GatherDims ⟨2, ![100000, D]⟩ ⟨2, ![1600000, 1]⟩ ⟨2, ![1600000, D]⟩)
    (wfG : GatherDims.WF ⟨2, ![100000, D]⟩ ⟨2, ![1600000, 1]⟩ ⟨2, ![1600000, D]⟩ [1] [0] [] [0] [] 1 ![1, D])
    (hG : dG = rowGatherDims 100000 1600000 D wfG)
    (hb : (⟨0, ![]⟩ : Shape).BroadcastsInDim ⟨2, ![100000, D]⟩ ![])
    (T : (⟨2, ![100000, D]⟩ : Shape).Idx → EReal) (s d : IVec ⟨2, ![1600000, 1]⟩ 32) (v : Fin 100000) (k : Fin D) :
    Host.scatterAdd (F := Ideal) dS (broadcastInDim ⟨2, ![100000, D]⟩ ![] hb (constant ⟨0, ![]⟩ .f32 0x00000000#32)) d
        (Host.gather dG T s) (ix2 v k) = edgeSum s d T v k := by
  subst hS hG
  -- each gathered entry is the table entry of the row the edge reads, whatever set of edges is summed over
  have hsum : ∀ A : Finset (Fin 1600000),
      ∑ e ∈ A, Host.gather (rowGatherDims 100000 1600000 D wfG) T s (ix2 e k) = ∑ e ∈ A, T (ix2 (srcRow s e) k) :=
    fun A => Finset.sum_congr rfl fun e _ => gather_row_apply (by norm_num : 0 < 100000) wfG T s e k
  calc Host.scatterAdd (F := Ideal) (rowScatterDims 100000 1600000 D wfS)
          (broadcastInDim ⟨2, ![100000, D]⟩ ![] hb (constant ⟨0, ![]⟩ .f32 0x00000000#32)) d
          (Host.gather (rowGatherDims 100000 1600000 D wfG) T s) (ix2 v k)
      = Ideal.hostScatterAdd (rowScatterDims 100000 1600000 D wfS)
          (broadcastInDim ⟨2, ![100000, D]⟩ ![] hb (constant (F := Ideal) ⟨0, ![]⟩ .f32 0x00000000#32)) d
          (Host.gather (rowGatherDims 100000 1600000 D wfG) T s) (ix2 v k) := host_scatterAdd_eq _ _ _ _ _
    _ = broadcastInDim ⟨2, ![100000, D]⟩ ![] hb (constant (F := Ideal) ⟨0, ![]⟩ .f32 0x00000000#32) (ix2 v k)
          + ∑ e ∈ Finset.univ.filter (fun e : Fin 1600000 => (d (ix2 e 0)).toInt = (v.val : Int)),
              Host.gather (rowGatherDims 100000 1600000 D wfG) T s (ix2 e k) := scatterAdd_row_apply wfS _ _ _ v k
    _ = Ideal.ofBits .f32 0x00000000#32
          + ∑ e ∈ Finset.univ.filter (fun e : Fin 1600000 => (d (ix2 e 0)).toInt = (v.val : Int)), T (ix2 (srcRow s e) k) :=
        congrArg₂ (· + ·) (splat_apply hb _ _) (hsum _)
    _ = edgeSum s d T v k := by unfold edgeSum into; rfl

/-- A one per edge added into a zero vector at the target column: the number of edges into `v`. -/
theorem count_apply
    (dS : ScatterDims ⟨1, ![100000]⟩ ⟨2, ![1600000, 1]⟩ ⟨1, ![1600000]⟩)
    (wfS : ScatterDims.WF ⟨1, ![100000]⟩ ⟨2, ![1600000, 1]⟩ ⟨1, ![1600000]⟩ [] [0] [0] 1)
    (hS : dS = vecScatterDims 100000 1600000 wfS)
    (hb : (⟨0, ![]⟩ : Shape).BroadcastsInDim ⟨1, ![100000]⟩ ![])
    (hb' : (⟨0, ![]⟩ : Shape).BroadcastsInDim ⟨1, ![1600000]⟩ ![])
    (d : IVec ⟨2, ![1600000, 1]⟩ 32) (v : Fin 100000) :
    Host.scatterAdd (F := Ideal) dS (broadcastInDim ⟨1, ![100000]⟩ ![] hb (constant ⟨0, ![]⟩ .f32 0x00000000#32)) d
        (broadcastInDim ⟨1, ![1600000]⟩ ![] hb' (constant ⟨0, ![]⟩ .f32 0x3F800000#32)) (ix1 v) = inDeg d v := by
  subst hS
  -- each update is the literal one, whatever set of edges is summed over
  have hsum : ∀ A : Finset (Fin 1600000),
      ∑ e ∈ A, broadcastInDim ⟨1, ![1600000]⟩ ![] hb' (constant (F := Ideal) ⟨0, ![]⟩ .f32 0x3F800000#32) (ix1 e)
        = ∑ _e ∈ A, Ideal.ofBits .f32 0x3F800000#32 :=
    fun A => Finset.sum_congr rfl fun e _ => splat_apply hb' _ _
  calc Host.scatterAdd (F := Ideal) (vecScatterDims 100000 1600000 wfS)
          (broadcastInDim ⟨1, ![100000]⟩ ![] hb (constant ⟨0, ![]⟩ .f32 0x00000000#32)) d
          (broadcastInDim ⟨1, ![1600000]⟩ ![] hb' (constant ⟨0, ![]⟩ .f32 0x3F800000#32)) (ix1 v)
      = Ideal.hostScatterAdd (vecScatterDims 100000 1600000 wfS)
          (broadcastInDim ⟨1, ![100000]⟩ ![] hb (constant (F := Ideal) ⟨0, ![]⟩ .f32 0x00000000#32)) d
          (broadcastInDim ⟨1, ![1600000]⟩ ![] hb' (constant (F := Ideal) ⟨0, ![]⟩ .f32 0x3F800000#32)) (ix1 v) :=
        host_scatterAdd_eq _ _ _ _ _
    _ = broadcastInDim ⟨1, ![100000]⟩ ![] hb (constant (F := Ideal) ⟨0, ![]⟩ .f32 0x00000000#32) (ix1 v)
          + ∑ e ∈ Finset.univ.filter (fun e : Fin 1600000 => (d (ix2 e 0)).toInt = (v.val : Int)),
              broadcastInDim ⟨1, ![1600000]⟩ ![] hb' (constant (F := Ideal) ⟨0, ![]⟩ .f32 0x3F800000#32) (ix1 e) :=
        scatterAdd_vec_apply wfS _ _ _ v
    _ = Ideal.ofBits .f32 0x00000000#32
          + ∑ _e ∈ Finset.univ.filter (fun e : Fin 1600000 => (d (ix2 e 0)).toInt = (v.val : Int)),
              Ideal.ofBits .f32 0x3F800000#32 :=
        congrArg₂ (· + ·) (splat_apply hb _ _) (hsum _)
    _ = inDeg d v := by unfold inDeg into; rfl

end Cert.Sgcn

end
-- ==== Proof.LibIdealReal.lean ====
/-
  Laws of the exact extended-real arithmetic used when two programs compute one real-valued formula in different
  arrangements: a product with a reciprocal against a quotient, a quotient of a product by a nonzero real constant
  against the product with that constant's reciprocal, the square against the power with exponent two, a sum of
  negated terms against the negated sum, and a quotient of a sum against the sum of the quotients.

  The extended reals are not a field: `0 / 0` and `0 * (1 / 0)` differ, opposite infinities do not cancel, and
  negation does not distribute over `⊤ + ⊥`. Each law below therefore names what it needs: a nonzero divisor, or that
  the terms are real numbers. The predicate `IsReal` says that an extended real is (the image of) a real number, and
  is closed under the operations met here, so that the needed facts propagate through a long formula step by step.
-/
import Idealize.ShloMosaic.PureOps.Ideal

noncomputable section

namespace Cert.LibIdealReal

open Idealize.ShloMosaic
open scoped BigOperators

variable {ι : Type*}

/-! ## Quotients -/

/-- `x * (1 / y) = x / y` for a divisor other than zero (an infinite divisor included: both sides are `x * 0`). At
    `y = 0` the law fails for `x = 0`: the quotient is the junk value `⊥`, the product `0 * ⊤ = 0`. -/
theorem mul_recip (x y : EReal) (hy : y ≠ 0) : x * Ideal.div 1 y = Ideal.div x y := by
  unfold Ideal.div; rw [if_neg hy, if_neg hy, one_mul]

/-- The quotient of two real numbers, the divisor nonzero, is the real quotient. -/
theorem div_coe_coe (x : ℝ) {y : ℝ} (hy : y ≠ 0) : Ideal.div (x : EReal) (y : EReal) = ((x / y : ℝ) : EReal) := by
  rw [Ideal.div_coe hy, ← EReal.coe_mul, _root_.mul_one_div]

/-- `(a * b) / D = a * (b * (1 / D))` for a nonzero real constant `D`, whatever `a` and `b` are: multiplication of
    extended reals is associative. -/
theorem div_mul_assoc {D : ℝ} (hD : D ≠ 0) (a b : EReal) :
    Ideal.div (a * b) (D : EReal) = a * (b * ((1 / D : ℝ) : EReal)) := by
  rw [Ideal.div_coe hD, mul_assoc]

/-- The power with exponent two of a real number is its square. -/
theorem pow_two (r : ℝ) : Ideal.pow (r : EReal) ((2 : ℝ) : EReal) = (r : EReal) * (r : EReal) := by
  show ((Real.rpow r 2 : ℝ) : EReal) = _
  rw [← EReal.coe_mul]; congr 1
  show r ^ (2 : ℝ) = r * r
  rw [Real.rpow_two, sq]

/-! ## Finite sums of real numbers -/

/-- The inclusion of the reals commutes with finite sums. -/
theorem coe_sum (A : Finset ι) (f : ι → ℝ) : ((∑ j ∈ A, f j : ℝ) : EReal) = ∑ j ∈ A, (f j : EReal) := by
  induction A using Finset.cons_induction with
  | empty => rw [Finset.sum_empty, Finset.sum_empty, EReal.coe_zero]
  | cons a A ha ih => rw [Finset.sum_cons, Finset.sum_cons, EReal.coe_add, ih]

/-- `0 - x` is `-x`. -/
theorem zero_sub_coe (x : ℝ) : (0 : EReal) - (x : EReal) = ((-x : ℝ) : EReal) := by
  rw [← EReal.coe_zero, ← EReal.coe_sub, zero_sub]

/-- Summing `0 - x j` over real terms gives the negated sum. -/
theorem sum_zero_sub (A : Finset ι) (x : ι → ℝ) :
    ∑ j ∈ A, ((0 : EReal) - (x j : EReal)) = -(∑ j ∈ A, (x j : EReal)) := by
  rw [← coe_sum, ← EReal.coe_neg, ← Finset.sum_neg_distrib, coe_sum]
  exact Finset.sum_congr rfl fun j _ => zero_sub_coe (x j)

/-- A sum of real numbers divided by a nonzero real is the sum of the quotients. -/
theorem div_sum (A : Finset ι) (L : ι → ℝ) {n : ℝ} (hn : n ≠ 0) :
    Ideal.div (∑ j ∈ A, (L j : EReal)) (n : EReal) = ∑ j ∈ A, Ideal.div (L j : EReal) (n : EReal) := by
  rw [← coe_sum, div_coe_coe _ hn, Finset.sum_div, coe_sum]
  exact Finset.sum_congr rfl fun j _ => (div_coe_coe _ hn).symm

/-! ## Being a real number -/

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, EReal.coe_zero.symm⟩
theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A quotient of real numbers, the divisor nonzero, is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

theorem IsReal.exp {x : EReal} (hx : IsReal x) : IsReal (Ideal.exp x) := by
  obtain ⟨a, rfl⟩ := hx; exact ⟨Real.exp a, rfl⟩

/-- The logarithm of a positive real number is a real number. -/
theorem IsReal.log {x : EReal} (hx : IsReal x) (hpos : 0 < x) : IsReal (Ideal.log x) := by
  obtain ⟨a, rfl⟩ := hx
  have ha : 0 < a := by exact_mod_cast hpos
  exact ⟨Real.log a, by rw [Ideal.log_coe, if_neg (not_le.mpr ha)]⟩

theorem IsReal.sum (A : Finset ι) (f : ι → EReal) (h : ∀ j ∈ A, IsReal (f j)) : IsReal (∑ j ∈ A, f j) := by
  induction A using Finset.cons_induction with
  | empty => rw [Finset.sum_empty]; exact IsReal.zero
  | cons a A ha ih =>
    rw [Finset.sum_cons]
    exact (h a (Finset.mem_cons_self a A)).add (ih fun j hj => h j (Finset.mem_cons_of_mem hj))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

/-- The square of a real number read on the extended reals is the power with exponent two. -/
theorem IsReal.pow_two {x : EReal} (hx : IsReal x) : Ideal.pow x ((2 : ℝ) : EReal) = x * x := by
  obtain ⟨a, rfl⟩ := hx; exact Cert.LibIdealReal.pow_two a

end Cert.LibIdealReal

end
-- ==== Proof.Laws.lean ====
/-
  Two facts about the mean: the float literal 1.0 is the number one, and multiplying by the reciprocal of the clamped
  count is dividing by it (the clamped count is at least one, so it is not zero).
-/
import proofs.«112820_j33543694581992_2_alg».proof.Proof.Spec
import proofs.«112820_j33543694581992_2_alg».proof.Proof.LibIdealReal

noncomputable section

namespace Cert.Sgcn

open Idealize.ShloMosaic

/-- The literal `0x3F800000` (sign 0, biased exponent 127, fraction 0) is the number one. -/
theorem one32_eq : one32 = 1 := by
  simp [one32, Ideal.ofBits, Ideal.ieee]
  rw [← EReal.coe_mul, ← EReal.coe_one]
  exact congrArg _ (by norm_num)

/-- A sum times the reciprocal of its clamped count is the mean. -/
theorem mul_recip_count (S c : EReal) : S * Ideal.div one32 (max c one32) = mean S c := by
  unfold mean
  rw [one32_eq]
  exact Cert.LibIdealReal.mul_recip S (max c 1) (ne_of_gt (lt_of_lt_of_le zero_lt_one (le_max_right c 1)))

end Cert.Sgcn

end
-- ==== Proof.KerSpec.lean ====
/-
  The kernel program's host side against the specification.

  The arrays the two kernels read are: the rows of a table summed over an edge list, the reciprocal of the clamped
  number of incoming edges as a column, and each bias as a row. Read at an index these are the specification's edge
  sum, one over the clamped in-degree, and the bias entry; a sum times that reciprocal is the mean. So the layers
  written over those arrays are the specification's hidden and output arrays.
-/
import proofs.«112820_j33543694581992_2_alg».proof.Proof.KerHost
import proofs.«112820_j33543694581992_2_alg».proof.Proof.ArrSpec
import proofs.«112820_j33543694581992_2_alg».proof.Proof.Spec
import proofs.«112820_j33543694581992_2_alg».proof.Proof.EdgeRead
import proofs.«112820_j33543694581992_2_alg».proof.Proof.Laws
import proofs.«112820_j33543694581992_2_alg».proof.Proof.LibKeepdims
import Idealize.ShloMosaic.Lib.Pipeline.Value
import Idealize.ShloMosaic.Lib.ValueIdx

noncomputable section

open scoped BigOperators

namespace Cert.Sgcn.Ker

open Idealize.ShloMosaic Idealize.ShloMosaic.ValueIdx Cert.KernelIdeal Cert.KernelIdeal.Gen Cert.Sgcn

/-! ## The host arrays read at an index -/

/-- A vector of length b viewed as a [1, b] row reads, at (u, k), its entry k. -/
theorem shapeCast_b_1b_apply {α : Type} {b : ℕ} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- The host's quotient read at an index. -/
theorem host_divf_apply {s : Shape} {φ : FTy} (a b : FVec Ideal s φ) (i : s.Idx) :
    Host.divf (F := Ideal) a b i = Ideal.div (a i) (b i) := rfl

/-- The summed rows at (r, k): the specification's sum over the edges into r. -/
theorem rawSum_apply (T : S100000x64.Idx → EReal) (s d : IVec S1600000x1 32) (r : Fin 100000) (k : Fin 64) :
    rawSum T s d (ix2 r k) = edgeSum s d T r k := by
  unfold rawSum
  exact scatter_gather_apply scatter_S100000x64_S1600000x1_S1600000x64_1_0_0_1
    scatter_S100000x64_S1600000x1_S1600000x64_1_0_0_1_wf rfl
    gather_S100000x64_S1600000x1_S1600000x64_1_0_n_n_0_1_164
    gather_S100000x64_S1600000x1_S1600000x64_1_0_n_n_0_1_164_wf rfl _ T s d r k

/-- The reciprocal column at row r: one over the in-degree of r clamped below at one. -/
theorem recip_apply (d : IVec S1600000x1 32) (r : Fin 100000) (u : Fin 1) :
    recip d (ix2 r u) = Ideal.div one32 (max (inDeg d r) one32) := by
  unfold recip
  rw [host_divf_apply, maximumf_apply, splat_apply, shapeCast_a_a1_apply,
    count_apply scatter_S100000_S1600000x1_S1600000_n_0_0_1 scatter_S100000_S1600000x1_S1600000_n_0_0_1_wf rfl]

/-- The bias row at column j: the bias entry j. -/
theorem biasRow_apply (B : S32.Idx → EReal) (u : Fin 1) (j : Fin 32) : biasRow B (ix2 u j) = B (ix1 j) := by
  unfold biasRow
  exact shapeCast_b_1b_apply B _ u j

/-! ## The halves -/

/-- One half of layer 1 over the host arrays is the specification's half. -/
theorem half1_eq (x : S100000x64.Idx → EReal) (s d : IVec S1600000x1 32) (W : S128x32.Idx → EReal)
    (B : S32.Idx → EReal) (r : Fin 100000) (j : Fin 32) :
    arrHalf1 (rawSum x s d) x (recip d) W (biasRow B) r j
      = half1 (edgeSum s d x) (fun r k => x (ix2 r k)) (inDeg d) W B r j := by
  unfold arrHalf1 half1
  rw [biasRow_apply]
  refine congrArg₂ (· + ·) (congrArg₂ (· + ·) (Finset.sum_congr rfl fun k _ => ?_) rfl) rfl
  rw [rawSum_apply, recip_apply, mul_recip_count]

/-- One half of layer 2 over the host arrays is the specification's half, whatever columns it takes. -/
theorem half2_eq (z : S100000x64.Idx → EReal) (sP dP sN dN : IVec S1600000x1 32) (ca cb cz : Fin 32 → Fin 64)
    (W : S96x32.Idx → EReal) (B : S32.Idx → EReal) (r : Fin 100000) (j : Fin 32) :
    arrHalf2 (rawSum z sP dP) (rawSum z sN dN) z (recip dP) (recip dN) ca cb cz W (biasRow B) r j
      = half2 (edgeSum sP dP z) (edgeSum sN dN z) (fun r k => z (ix2 r k)) (inDeg dP) (inDeg dN) ca cb cz W B r j := by
  unfold arrHalf2 half2
  rw [biasRow_apply]
  refine congrArg₂ (· + ·) (congrArg₂ (· + ·) (congrArg₂ (· + ·) (Finset.sum_congr rfl fun k _ => ?_)
    (Finset.sum_congr rfl fun k _ => ?_)) rfl) rfl
  · rw [rawSum_apply, recip_apply, mul_recip_count]
  · rw [rawSum_apply, recip_apply, mul_recip_count]

/-! ## The layers -/

/-- Layer 1 over the host arrays is the specification's hidden array. -/
theorem layer1_eq (x : S100000x64.Idx → EReal) (sP dP sN dN : IVec S1600000x1 32) (w1b : S128x32.Idx → EReal)
    (b1b : S32.Idx → EReal) (w1u : S128x32.Idx → EReal) (b1u : S32.Idx → EReal) :
    arrLayer1 (rawSum x sP dP) (rawSum x sN dN) x (recip dP) (recip dN) w1b (biasRow b1b) w1u (biasRow b1u)
      = hidden x sP dP sN dN w1b b1b w1u b1u := by
  funext i
  obtain ⟨r, q, rfl⟩ : ∃ (r : Fin 100000) (q : Fin 64), i = ix2 r q := ⟨i 0, i 1, eq_ix2 i⟩
  show arrLayer1At _ _ _ _ _ _ _ _ _ r q = layer1 _ _ _ _ _ _ _ _ _ r q
  unfold arrLayer1At layer1
  by_cases h : q.val < 32
  · rw [dif_pos h, dif_pos h, half1_eq]
  · rw [dif_neg h, dif_neg h, half1_eq]

/-- Layer 2 over the host arrays is the specification's output array. -/
theorem layer2_eq (z : S100000x64.Idx → EReal) (sP dP sN dN : IVec S1600000x1 32) (w2b : S96x32.Idx → EReal)
    (b2b : S32.Idx → EReal) (w2u : S96x32.Idx → EReal) (b2u : S32.Idx → EReal) :
    arrLayer2 (rawSum z sP dP) (rawSum z sN dN) z (recip dP) (recip dN) w2b (biasRow b2b) w2u (biasRow b2u)
      = output z sP dP sN dN w2b b2b w2u b2u := by
  funext i
  obtain ⟨r, q, rfl⟩ : ∃ (r : Fin 100000) (q : Fin 64), i = ix2 r q := ⟨i 0, i 1, eq_ix2 i⟩
  show arrLayer2At _ _ _ _ _ _ _ _ _ r q = layer2 _ _ _ _ _ _ _ _ _ r q
  unfold arrLayer2At layer2
  by_cases h : q.val < 32
  · rw [dif_pos h, dif_pos h, half2_eq]
  · rw [dif_neg h, dif_neg h, half2_eq]

end Cert.Sgcn.Ker

end
-- ==== Proof.RefCols.lean ====
/-
  The two integer columns of an edge list, as the reference program spells them from the `[2, 1600000]` list:
  row 0 holds each edge's source, row 1 its target. A negative source is first moved up by the number of nodes
  (the wrap-around of a negative index); the target is taken as it is. Both rows are laid out as `[1600000, 1]` columns.
-/
import proofs.«112820_j33543694581992_2_alg».proof.Proof.Gen.ReferenceIdeal

noncomputable section

namespace Cert.Sgcn.Ref

open Idealize.ShloMosaic Cert.ReferenceIdeal Cert.ReferenceIdeal.Gen

/-- Row `0` of the list (the sources), as a vector. -/
def srcRowVec (e : IVec S2x1600000 32) : IVec S1600000 32 :=
  shapeCast _ (extractStridedSlice S1x1600000 ![0, 0] e slices_S2x1600000_S1x1600000_0_0) shapeCasts_S1x1600000_S1600000

/-- The source column: a negative source moved up by 100000, then laid out as a column. -/
def srcCol (e : IVec S2x1600000 32) : IVec S1600000x1 32 :=
  broadcastInDim S1600000x1 ![0] bcast_S1600000_S1600000x1_0
    (select (cmpi .slt (srcRowVec e) (broadcastInDim S1600000 ![] bcast_S_S1600000 (constantI S_ 32 0#32)))
      (addi (srcRowVec e) (broadcastInDim S1600000 ![] bcast_S_S1600000 (constantI S_ 32 100000#32))) (srcRowVec e))

/-- The target column: row `1` of the list laid out as a column. -/
def dstCol (e : IVec S2x1600000 32) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

end Cert.Sgcn.Ref

end
-- ==== Proof.LibHostDot.lean ====
/-
  The host's plain matrix product read at an index, over the extended reals, for a program's own record of
  dimension numbers: entry (a, b) of l @ r is the sum over k of l(a, k) · r(k, b). Generic in the extents.
-/
import proofs.«112820_j33543694581992_2_alg».proof.Proof.LibMatmul

noncomputable section

open scoped BigOperators

namespace Idealize.ShloMosaic.MatmulIdx

open Idealize.ShloMosaic Idealize.ShloMosaic.ValueIdx

theorem host_dot_ix2 {A K B : Nat} (wf : DotDims.WF ⟨2, ![A, K]⟩ ⟨2, ![K, B]⟩ ⟨2, ![A, B]⟩ [1] [0] [0] [1] [] [])
    (d : DotDims ⟨2, ![A, K]⟩ ⟨2, ![K, B]⟩ ⟨2, ![A, B]⟩) (hd : d = mmDims A K B wf) {φ₁ φ₂ : FTy}
    (prec : Option ContractPrecision) (l : FVec Ideal ⟨2, ![A, K]⟩ φ₁) (r : FVec Ideal ⟨2, ![K, B]⟩ φ₂) (a : Fin A) (b : Fin B) :
    Host.dotGeneral (F := Ideal) d prec l r (ix2 a b) = ∑ k : Fin K, l (ix2 a k) * r (ix2 k b) := by
  subst hd
  simp only [Host.dotGeneral]
  exact dotGeneral_ix2 wf prec _ l r a b

end Idealize.ShloMosaic.MatmulIdx

end
-- ==== Proof.LibBroadcastIn.lean ====
/-
  A host broadcast along named axes, read at an index, for the small shapes a per-row scale and a per-column bias
  take: a vector as a column, a column across the columns, a vector as a row, a row down the rows. Generic in the
  extents.
-/
import Idealize.ShloMosaic.Lib.Pipeline.Value
import Idealize.ShloMosaic.Lib.ValueIdx

noncomputable section

namespace Idealize.ShloMosaic.ValueIdx

variable {α : Type}

/-- A vector [a] as a column [a, 1]: entry (e, 0) is entry e. -/
theorem broadcastInDim_a_a1_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) := by
  refine broadcastInDim_apply ![0] h x (ix2 e u) (ix1 e) fun ax => ?_
  match ax with
  | ⟨0, _⟩ =>
    show e.val = if a = 1 then 0 else e.val
    have := e.isLt
    split <;> omega

/-- A column [a, 1] across b columns: entry (e, k) is entry (e, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (e : Fin a) (k : Fin b) :
    broadcastInDim ⟨2, ![a, b]⟩ ![0, 1] h x (ix2 e k) = x (ix2 e (0 : Fin 1)) := by
  refine broadcastInDim_apply ![0, 1] h x (ix2 e k) (ix2 e (0 : Fin 1)) fun ax => ?_
  match ax with
  | ⟨0, _⟩ =>
    show e.val = if a = 1 then 0 else e.val
    have := e.isLt
    split <;> omega
  | ⟨1, _⟩ =>
    show (0 : ℕ) = if (1 : ℕ) = 1 then 0 else k.val
    rw [if_pos rfl]

/-- A vector [b] as a row [1, b]: entry (0, k) is entry k. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    have := k.isLt
    split <;> omega

/-- A row [1, b] down a rows: entry (n, k) is entry (0, k). -/
theorem broadcastInDim_1b_ab_apply {a b : ℕ} (x : (⟨2, ![1, b]⟩ : Shape).Idx → α)
    (h : (⟨2, ![1, b]⟩ : Shape).BroadcastsInDim ⟨2, ![a, b]⟩ ![0, 1]) (n : Fin a) (k : Fin b) :
    broadcastInDim ⟨2, ![a, b]⟩ ![0, 1] h x (ix2 n k) = x (ix2 (0 : Fin 1) k) := by
  refine broadcastInDim_apply ![0, 1] h x (ix2 n k) (ix2 (0 : Fin 1) k) fun ax => ?_
  match ax with
  | ⟨0, _⟩ =>
    show (0 : ℕ) = if (1 : ℕ) = 1 then 0 else n.val
    rw [if_pos rfl]
  | ⟨1, _⟩ =>
    show k.val = if b = 1 then 0 else k.val
    have := k.isLt
    split <;> omega

end Idealize.ShloMosaic.ValueIdx

end
-- ==== Proof.RefHidden.lean ====
/-
  Layer 1 of the reference, read at an index.

  The reference's hidden array is tanh of two 32-column halves laid side by side. Each half is a product of the
  128-wide row [mean-aggregated features | own features] with a 128 x 32 weight, plus a bias row. Read at node r and
  column j, the contraction over 128 splits into its two halves of 64: the first reads the mean over the incoming
  edges, the second the node's own features.
-/
import proofs.«112820_j33543694581992_2_alg».proof.Proof.Gen.ReferenceIdeal.Run
import proofs.«112820_j33543694581992_2_alg».proof.Proof.Spec
import proofs.«112820_j33543694581992_2_alg».proof.Proof.RefCols
import proofs.«112820_j33543694581992_2_alg».proof.Proof.LibHostDot
import proofs.«112820_j33543694581992_2_alg».proof.Proof.LibBroadcastIn
import proofs.«112820_j33543694581992_2_alg».proof.Proof.LibEdgeIndex
import proofs.«112820_j33543694581992_2_alg».proof.Proof.EdgeRead
import Idealize.ShloMosaic.Lib.Pipeline.Value
import Idealize.ShloMosaic.Lib.ValueIdx

noncomputable section

open scoped BigOperators

namespace Cert.Sgcn.Ref

open Idealize.ShloMosaic Idealize.ShloMosaic.ValueIdx Idealize.ShloMosaic.StableHlo Idealize.ShloMosaic.MatmulIdx
  Cert.ReferenceIdeal Cert.ReferenceIdeal.Gen Cert.ReferenceIdeal.Value

/-! ## Small readings -/

/-- A sum over 128 positions is the sum over the first 64 plus the sum over the last 64. -/
theorem sum_split_128 (f : Fin 128 → EReal) :
    ∑ k : Fin 128, f k
      = ∑ k : Fin 64, f ⟨k.val, by omega⟩ + ∑ k : Fin 64, f ⟨64 + k.val, by omega⟩ :=
  Fin.sum_univ_add (a := 64) (b := 64) f

variable {α : Type}

/-- Two blocks of columns side by side, read at a column of the left block. -/
theorem cat2_left {N a b c : Nat} (x₁ : (⟨2, ![N, a]⟩ : Shape).Idx → α) (x₂ : (⟨2, ![N, b]⟩ : Shape).Idx → α)
    (h : Shape.Concatenates [⟨2, ![N, a]⟩, ⟨2, ![N, b]⟩] ⟨2, ![N, c]⟩ 1) (r : Fin N) (k : Fin a) (j : Fin c)
    (hj : k.val = j.val) :
    concatenate ⟨2, ![N, c]⟩ 1 [⟨⟨2, ![N, a]⟩, x₁⟩, ⟨⟨2, ![N, b]⟩, x₂⟩] h (ix2 r j) = x₁ (ix2 r k) :=
  concatenate_pair_apply_left 1 x₁ x₂ h (ix2 r j) rfl (ix2 r k)
    (fun t => match t with | ⟨0, _⟩ => rfl | ⟨1, _⟩ => hj)

/-- Two blocks of columns side by side, read at a column of the right block. -/
theorem cat2_right {N a b c : Nat} (x₁ : (⟨2, ![N, a]⟩ : Shape).Idx → α) (x₂ : (⟨2, ![N, b]⟩ : Shape).Idx → α)
    (h : Shape.Concatenates [⟨2, ![N, a]⟩, ⟨2, ![N, b]⟩] ⟨2, ![N, c]⟩ 1) (r : Fin N) (k : Fin b) (j : Fin c)
    (hj : k.val + a = j.val) :
    concatenate ⟨2, ![N, c]⟩ 1 [⟨⟨2, ![N, a]⟩, x₁⟩, ⟨⟨2, ![N, b]⟩, x₂⟩] h (ix2 r j) = x₂ (ix2 r k) :=
  concatenate_pair_apply_right 1 x₁ x₂ h (ix2 r j) rfl rfl (ix2 r k)
    (fun t => match t with | ⟨0, _⟩ => fun _ => rfl | ⟨1, _⟩ => fun hne => absurd rfl hne)
    hj

/-- The host's quotient read at an index. -/
theorem host_divf_apply {s : Shape} {φ : FTy} (a b : FVec Ideal s φ) (i : s.Idx) :
    Host.divf (F := Ideal) a b i = Ideal.div (a i) (b i) := rfl

/-- The host's tanh read at an index. -/
theorem host_tanh_apply {s : Shape} {φ : FTy} (a : FVec Ideal s φ) (i : s.Idx) :
    Host.tanh (F := Ideal) a i = Ideal.tanh (a i) := rfl

/-- A scalar literal spread over a vector reads the literal's value everywhere. -/
theorem splat1_apply {n : Nat} (h : (⟨0, ![]⟩ : Shape).BroadcastsInDim ⟨1, ![n]⟩ ![]) (w : BitVec 32) (v : Fin n) :
    broadcastInDim ⟨1, ![n]⟩ ![] h (constant (F := Ideal) ⟨0, ![]⟩ .f32 w) (ix1 v) = Ideal.ofBits .f32 w := rfl

/-- The clamped count of incoming edges, spread as a column and then across the columns, read at (r, k). -/
theorem clamp_apply {D : Nat} (c one : FVec Ideal ⟨1, ![100000]⟩ .f32)
    (h1 : (⟨1, ![100000]⟩ : Shape).BroadcastsInDim ⟨2, ![100000, 1]⟩ ![0])
    (h2 : (⟨2, ![100000, 1]⟩ : Shape).BroadcastsInDim ⟨2, ![100000, D]⟩ ![0, 1]) (r : Fin 100000) (k : Fin D) :
    broadcastInDim ⟨2, ![100000, D]⟩ ![0, 1] h2 (broadcastInDim ⟨2, ![100000, 1]⟩ ![0] h1 (maximumf c one)) (ix2 r k)
      = max (c (ix1 r)) (one (ix1 r)) := by
  rw [broadcastInDim_a1_ab_apply, broadcastInDim_a_a1_apply, maximumf_apply]

/-- A bias vector laid as a row and then down the rows, read at (r, j). -/
theorem bias_apply {N n : Nat} (B : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![N, n]⟩ ![0, 1]) (r : Fin N) (j : Fin n) :
    broadcastInDim ⟨2, ![N, n]⟩ ![0, 1] h2 (broadcastInDim ⟨2, ![1, n]⟩ ![1] h1 B) (ix2 r j) = B (ix1 j) := by
  rw [broadcastInDim_1b_ab_apply, broadcastInDim_b_1b_apply]

/-! ## One half of layer 1 -/

/-- One half of layer 1 of the reference at node r and column j: the 128-wide contraction of
    [mean-aggregated features | own features] with the weight, plus the bias, is the specification's half. -/
theorem half_eq (x : FVec Ideal S100000x64 .f32) (s d : IVec S1600000x1 32)
    (W : FVec Ideal S128x32 .f32) (B : FVec Ideal S32 .f32)
    (r : Fin 100000) (j : Fin 32) :
    addf (F := Ideal)
        (Host.dotGeneral dot_S100000x128_S128x32_S100000x32_1_0_0_1_n_n none
          (concatenate S100000x128 1
            [⟨S100000x64,
                Host.divf
                  (Host.scatterAdd scatter_S100000x64_S1600000x1_S1600000x64_1_0_0_1
                    (broadcastInDim S100000x64 ![] bcast_S_S100000x64 (constant S_ .f32 0x00000000#32)) d
                    (Host.gather gather_S100000x64_S1600000x1_S1600000x64_1_0_n_n_0_1_164 x s))
                  (broadcastInDim S100000x64 ![0, 1] bcast_S100000x1_S100000x64_0_1
                    (broadcastInDim S100000x1 ![0] bcast_S100000_S100000x1_0
                      (maximumf
                        (Host.scatterAdd scatter_S100000_S1600000x1_S1600000_n_0_0_1
                          (broadcastInDim S100000 ![] bcast_S_S100000 (constant S_ .f32 0x00000000#32)) d
                          (broadcastInDim S1600000 ![] bcast_S_S1600000 (constant S_ .f32 0x3F800000#32)))
                        (broadcastInDim S100000 ![] bcast_S_S100000 (constant S_ .f32 0x3F800000#32)))))⟩,
              ⟨S100000x64, x⟩]
            concatenates_S100000x64_S100000x64_S100000x128_d1) W)
        (broadcastInDim S100000x32 ![0, 1] bcast_S1x32_S100000x32_0_1 (broadcastInDim S1x32 ![1] bcast_S32_S1x32_1 B))
        (ix2 r j)
      = half1 (edgeSum s d x) (fun r k => x (ix2 r k)) (inDeg d) W B r j := by
  rw [addf_apply, bias_apply,
    host_dot_ix2 dot_S100000x128_S128x32_S100000x32_1_0_0_1_n_n_wf dot_S100000x128_S128x32_S100000x32_1_0_0_1_n_n rfl, sum_split_128]
  unfold half1 mean
  refine congrArg₂ (· + ·) (congrArg₂ (· + ·) (Finset.sum_congr rfl fun k _ => ?_)
    (Finset.sum_congr rfl fun k _ => ?_)) rfl
  · rw [cat2_left (c := 128) _ _ _ r k ⟨k.val, by omega⟩ rfl, host_divf_apply, clamp_apply, splat1_apply,
      scatter_gather_apply scatter_S100000x64_S1600000x1_S1600000x64_1_0_0_1 scatter_S100000x64_S1600000x1_S1600000x64_1_0_0_1_wf rfl
        gather_S100000x64_S1600000x1_S1600000x64_1_0_n_n_0_1_164 gather_S100000x64_S1600000x1_S1600000x64_1_0_n_n_0_1_164_wf rfl,
      count_apply scatter_S100000_S1600000x1_S1600000_n_0_0_1 scatter_S100000_S1600000x1_S1600000_n_0_0_1_wf rfl]
  · rw [cat2_right (c := 128) _ _ _ r k ⟨64 + k.val, by omega⟩ (Nat.add_comm _ _)]

/-! ## The two halves side by side under tanh -/

/-- tanh of two 32-column blocks side by side, read at (r, q): the left block for q below 32, else the right one. -/
theorem tanh_cat_apply (a b : FVec Ideal S100000x32 .f32) (r : Fin 100000) (q : Fin 64) :
    Host.tanh (F := Ideal)
        (concatenate S100000x64 1 [⟨S100000x32, a⟩, ⟨S100000x32, b⟩] concatenates_S100000x32_S100000x32_S100000x64_d1)
        (ix2 r q)
      = Ideal.tanh (if h : q.val < 32 then a (ix2 r ⟨q.val, h⟩) else b (ix2 r ⟨q.val - 32, by omega⟩)) := by
  rw [host_tanh_apply]
  by_cases h : q.val < 32
  · rw [dif_pos h, cat2_left (c := 64) a b _ r ⟨q.val, h⟩ q rfl]
  · rw [dif_neg h, cat2_right (c := 64) a b _ r ⟨q.val - 32, by omega⟩ q (by show q.val - 32 + 32 = q.val; omega)]

/-- The specification's hidden array read at (r, q). -/
theorem hidden_apply (x : (⟨2, ![100000, 64]⟩ : Shape).Idx → EReal) (sP dP sN dN : IVec ⟨2, ![1600000, 1]⟩ 32)
    (W1b : (⟨2, ![128, 32]⟩ : Shape).Idx → EReal) (B1b : (⟨1, ![32]⟩ : Shape).Idx → EReal)
    (W1u : (⟨2, ![128, 32]⟩ : Shape).Idx → EReal) (B1u : (⟨1, ![32]⟩ : Shape).Idx → EReal)
    (r : Fin 100000) (q : Fin 64) :
    hidden x sP dP sN dN W1b B1b W1u B1u (ix2 r q)
      = layer1 (edgeSum sP dP x) (edgeSum sN dN x) (fun r k => x (ix2 r k)) (inDeg dP) (inDeg dN)
          W1b B1b W1u B1u r q := rfl

/-! ## Layer 1 of the reference -/

/-- The reference's hidden array is the specification's, over the two edge lists' source and target columns. -/
theorem hidden_eq (V0 : Valuation τ sig (Elt Ideal)) :
    res_main_v57 (F := Ideal) V0
      = Cert.Sgcn.hidden (V0 (Proc.devRef .tc main_arg0))
          (srcCol (V0 (Proc.devRef .tc main_arg1))) (dstCol (V0 (Proc.devRef .tc main_arg1)))
          (srcCol (V0 (Proc.devRef .tc main_arg2))) (dstCol (V0 (Proc.devRef .tc main_arg2)))
          (V0 (Proc.devRef .tc main_arg3)) (V0 (Proc.devRef .tc main_arg4))
          (V0 (Proc.devRef .tc main_arg5)) (V0 (Proc.devRef .tc main_arg6)) := by
  funext i
  obtain ⟨r, q, rfl⟩ : ∃ (r : Fin 100000) (q : Fin 64), i = ix2 r q := ⟨i 0, i 1, eq_ix2 i⟩
  rw [hidden_apply]
  unfold res_main_v57
  rw [tanh_cat_apply]
  unfold layer1
  by_cases h : q.val < 32
  · rw [dif_pos h, dif_pos h]
    exact congrArg Ideal.tanh (half_eq _ _ _ _ _ r ⟨q.val, h⟩)
  · rw [dif_neg h, dif_neg h]
    exact congrArg Ideal.tanh (half_eq _ _ _ _ _ r ⟨q.val - 32, by omega⟩)

end Cert.Sgcn.Ref

end
-- ==== Proof.RefOutput.lean ====
/-
  Layer 2 of the reference, read at an index.

  The reference's output array is tanh of two 32-column halves laid side by side. Each half is a product of a
  96-wide row with a 96 x 32 weight, plus a bias row; the 96-wide row is three 32-wide pieces side by side: the mean
  over the positive edges of 32 columns of the hidden array, the mean over the negative edges of the other 32
  columns, and 32 columns of the node's own hidden row. Read at node r and column j, the contraction over 96 splits
  into its three thirds. The reference takes the 32 columns by slicing the hidden array before it sums over the
  edges; the specification sums the 64-wide hidden array and reads column lo k or hi k of the sum. The two agree
  because a slice read at (v, k) is the array read at (v, lo k), resp. (v, hi k), edge by edge.
-/
import proofs.«112820_j33543694581992_2_alg».proof.Proof.Gen.ReferenceIdeal.Run
import proofs.«112820_j33543694581992_2_alg».proof.Proof.Spec
import proofs.«112820_j33543694581992_2_alg».proof.Proof.RefCols
import proofs.«112820_j33543694581992_2_alg».proof.Proof.EdgeRead
import proofs.«112820_j33543694581992_2_alg».proof.Proof.RefHidden
import proofs.«112820_j33543694581992_2_alg».proof.Proof.LibHostDot
import proofs.«112820_j33543694581992_2_alg».proof.Proof.LibBroadcastIn
import Idealize.ShloMosaic.Lib.Pipeline.Value
import Idealize.ShloMosaic.Lib.ValueIdx

noncomputable section

open scoped BigOperators

namespace Cert.Sgcn.Ref

open Idealize.ShloMosaic Idealize.ShloMosaic.ValueIdx Idealize.ShloMosaic.StableHlo Idealize.ShloMosaic.MatmulIdx
  Cert.ReferenceIdeal Cert.ReferenceIdeal.Gen Cert.ReferenceIdeal.Value

/-! ## Small readings -/
/-- A sum over 96 positions is the sum over its three thirds. -/
theorem sum_split_96 (f : Fin 96 → EReal) :
    ∑ k : Fin 96, f k = (∑ k : Fin 32, f ⟨k.val, by omega⟩ + ∑ k : Fin 32, f ⟨32 + k.val, by omega⟩)
      + ∑ k : Fin 32, f ⟨64 + k.val, by omega⟩ := by
  have h := Fin.sum_univ_add (a := 32 + 32) (b := 32) f
  rw [Fin.sum_univ_add (a := 32) (b := 32)] at h
  exact h

/-- The left 32 columns of a 64-wide array, read at (r, k): column lo k. -/
theorem slice_lo_apply (z : S100000x64.Idx → EReal) (r : Fin 100000) (k : Fin 32) :
    extractStridedSlice S100000x32 ![0, 0] z slices_S100000x64_S100000x32_0_0 (ix2 r k) = z (ix2 r (lo k)) :=
  extractStridedSlice_apply ![0, 0] z slices_S100000x64_S100000x32_0_0 (ix2 r k) (ix2 r (lo k)) fun a =>
    match a with
    | ⟨0, _⟩ => by show r.val = 0 + r.val; omega
    | ⟨1, _⟩ => by show k.val = 0 + k.val; omega

/-- The right 32 columns of a 64-wide array, read at (r, k): column hi k. -/
theorem slice_hi_apply (z : S100000x64.Idx → EReal) (r : Fin 100000) (k : Fin 32) :
    extractStridedSlice S100000x32 ![0, 32] z slices_S100000x64_S100000x32_0_32 (ix2 r k) = z (ix2 r (hi k)) :=
  extractStridedSlice_apply ![0, 32] z slices_S100000x64_S100000x32_0_32 (ix2 r k) (ix2 r (hi k)) fun a =>
    match a with
    | ⟨0, _⟩ => by show r.val = 0 + r.val; omega
    | ⟨1, _⟩ => by show 32 + k.val = 32 + k.val; rfl

/-- Summing the left 32 columns over the edges into v is reading column lo k of the sum of the whole rows. -/
theorem edgeSum_lo (s d : IVec S1600000x1 32) (z : S100000x64.Idx → EReal) (v : Fin 100000) (k : Fin 32) :
    edgeSum s d (extractStridedSlice S100000x32 ![0, 0] z slices_S100000x64_S100000x32_0_0) v k
      = edgeSum s d z v (lo k) := by
  unfold edgeSum
  exact congrArg _ (Finset.sum_congr rfl fun e _ => slice_lo_apply z (srcRow s e) k)

/-- Summing the right 32 columns over the edges into v is reading column hi k of the sum of the whole rows. -/
theorem edgeSum_hi (s d : IVec S1600000x1 32) (z : S100000x64.Idx → EReal) (v : Fin 100000) (k : Fin 32) :
    edgeSum s d (extractStridedSlice S100000x32 ![0, 32] z slices_S100000x64_S100000x32_0_32) v k
      = edgeSum s d z v (hi k) := by
  unfold edgeSum
  exact congrArg _ (Finset.sum_congr rfl fun e _ => slice_hi_apply z (srcRow s e) k)
/-- Three 32-wide pieces side by side, read in the first, the second and the third piece. -/
theorem cat3_0 (x0 x1 x2 : S100000x32.Idx → EReal) (r : Fin 100000) (k : Fin 32) (hk : k.val < 96) :
    concatenate S100000x96 1 [⟨S100000x32, x0⟩, ⟨S100000x32, x1⟩, ⟨S100000x32, x2⟩]
        concatenates_S100000x32_S100000x32_S100000x32_S100000x96_d1 (ix2 r (⟨k.val, hk⟩ : Fin 96)) = x0 (ix2 r k) :=
  concatenate_apply_piece (t := S100000x96) 1 [⟨S100000x32, x0⟩, ⟨S100000x32, x1⟩, ⟨S100000x32, x2⟩]
    concatenates_S100000x32_S100000x32_S100000x32_S100000x96_d1 (ix2 r (⟨k.val, hk⟩ : Fin 96))
    0 (by show (0 : Nat) < 3; omega) S100000x32 x0 rfl rfl 0 rfl (ix2 r k)
    (fun b => match b with
      | ⟨0, _⟩ => fun _ => rfl
      | ⟨1, _⟩ => fun hb => absurd rfl hb)
    (by show 0 + k.val = k.val; omega)

theorem cat3_1 (x0 x1 x2 : S100000x32.Idx → EReal) (r : Fin 100000) (k : Fin 32) (hk : 32 + k.val < 96) :
    concatenate S100000x96 1 [⟨S100000x32, x0⟩, ⟨S100000x32, x1⟩, ⟨S100000x32, x2⟩]
        concatenates_S100000x32_S100000x32_S100000x32_S100000x96_d1 (ix2 r (⟨32 + k.val, hk⟩ : Fin 96)) = x1 (ix2 r k) :=
  concatenate_apply_piece (t := S100000x96) 1 [⟨S100000x32, x0⟩, ⟨S100000x32, x1⟩, ⟨S100000x32, x2⟩]
    concatenates_S100000x32_S100000x32_S100000x32_S100000x96_d1 (ix2 r (⟨32 + k.val, hk⟩ : Fin 96))
    1 (by show (1 : Nat) < 3; omega) S100000x32 x1 rfl rfl 32 rfl (ix2 r k)
    (fun b => match b with
      | ⟨0, _⟩ => fun _ => rfl
      | ⟨1, _⟩ => fun hb => absurd rfl hb)
    rfl

theorem cat3_2 (x0 x1 x2 : S100000x32.Idx → EReal) (r : Fin 100000) (k : Fin 32) (hk : 64 + k.val < 96) :
    concatenate S100000x96 1 [⟨S100000x32, x0⟩, ⟨S100000x32, x1⟩, ⟨S100000x32, x2⟩]
        concatenates_S100000x32_S100000x32_S100000x32_S100000x96_d1 (ix2 r (⟨64 + k.val, hk⟩ : Fin 96)) = x2 (ix2 r k) :=
  concatenate_apply_piece (t := S100000x96) 1 [⟨S100000x32, x0⟩, ⟨S100000x32, x1⟩, ⟨S100000x32, x2⟩]
    concatenates_S100000x32_S100000x32_S100000x32_S100000x96_d1 (ix2 r (⟨64 + k.val, hk⟩ : Fin 96))
    2 (by show (2 : Nat) < 3; omega) S100000x32 x2 rfl rfl 64 rfl (ix2 r k)
    (fun b => match b with
      | ⟨0, _⟩ => fun _ => rfl
      | ⟨1, _⟩ => fun hb => absurd rfl hb)
    rfl

/-! ## The mean over the incoming edges -/

/-- The mean over the incoming edges, as the reference spells it, read at (r, k): the rows the edges read are gathered,
    added into a zero table at the edges' targets and divided by the clamped number of incoming edges. The two integer
    columns are given up to an equation, so that a differently spelt column can be put in its place. -/
theorem mean_piece_apply (T : S100000x32.Idx → EReal) (s d s' d' : IVec S1600000x1 32) (hs : s' = s) (hd : d' = d)
    (r : Fin 100000) (k : Fin 32) :
    Host.divf (F := Ideal) (φ := .f32)
      (Host.scatterAdd scatter_S100000x32_S1600000x1_S1600000x32_1_0_0_1
        (broadcastInDim S100000x32 ![] bcast_S_S100000x32 (constant (F := Ideal) S_ .f32 0x00000000#32)) d'
        (Host.gather gather_S100000x32_S1600000x1_S1600000x32_1_0_n_n_0_1_132 T s'))
      (broadcastInDim S100000x32 ![0, 1] bcast_S100000x1_S100000x32_0_1
        (broadcastInDim S100000x1 ![0] bcast_S100000_S100000x1_0
          (maximumf
            (Host.scatterAdd scatter_S100000_S1600000x1_S1600000_n_0_0_1
              (broadcastInDim S100000 ![] bcast_S_S100000 (constant (F := Ideal) S_ .f32 0x00000000#32)) d'
              (broadcastInDim S1600000 ![] bcast_S_S1600000 (constant (F := Ideal) S_ .f32 0x3F800000#32)))
            (broadcastInDim S100000 ![] bcast_S_S100000 (constant (F := Ideal) S_ .f32 0x3F800000#32)))))
      (ix2 r k) = mean (edgeSum s d T r k) (inDeg d r) := by
  subst hs hd
  unfold mean
  rw [host_divf_apply, clamp_apply, splat1_apply,
    scatter_gather_apply scatter_S100000x32_S1600000x1_S1600000x32_1_0_0_1
      scatter_S100000x32_S1600000x1_S1600000x32_1_0_0_1_wf rfl
      gather_S100000x32_S1600000x1_S1600000x32_1_0_n_n_0_1_132
      gather_S100000x32_S1600000x1_S1600000x32_1_0_n_n_0_1_132_wf rfl,
    count_apply scatter_S100000_S1600000x1_S1600000_n_0_0_1 scatter_S100000_S1600000x1_S1600000_n_0_0_1_wf rfl]

/-- The mean over the incoming edges of the left 32 columns of z: column lo k of the mean of the whole rows. -/
theorem mean_lo_apply (z : S100000x64.Idx → EReal) (s d s' d' : IVec S1600000x1 32) (hs : s' = s) (hd : d' = d)
    (r : Fin 100000) (k : Fin 32) :
    Host.divf (F := Ideal) (φ := .f32)
      (Host.scatterAdd scatter_S100000x32_S1600000x1_S1600000x32_1_0_0_1
        (broadcastInDim S100000x32 ![] bcast_S_S100000x32 (constant (F := Ideal) S_ .f32 0x00000000#32)) d'
        (Host.gather gather_S100000x32_S1600000x1_S1600000x32_1_0_n_n_0_1_132 (extractStridedSlice S100000x32 ![0, 0] z slices_S100000x64_S100000x32_0_0) s'))
      (broadcastInDim S100000x32 ![0, 1] bcast_S100000x1_S100000x32_0_1
        (broadcastInDim S100000x1 ![0] bcast_S100000_S100000x1_0
          (maximumf
            (Host.scatterAdd scatter_S100000_S1600000x1_S1600000_n_0_0_1
              (broadcastInDim S100000 ![] bcast_S_S100000 (constant (F := Ideal) S_ .f32 0x00000000#32)) d'
              (broadcastInDim S1600000 ![] bcast_S_S1600000 (constant (F := Ideal) S_ .f32 0x3F800000#32)))
            (broadcastInDim S100000 ![] bcast_S_S100000 (constant (F := Ideal) S_ .f32 0x3F800000#32)))))
      (ix2 r k)
      = mean (edgeSum s d z r (lo k)) (inDeg d r) := by
  rw [mean_piece_apply _ s d s' d' hs hd, edgeSum_lo]

/-- The mean over the incoming edges of the right 32 columns of z: column hi k of the mean of the whole rows. -/
theorem mean_hi_apply (z : S100000x64.Idx → EReal) (s d s' d' : IVec S1600000x1 32) (hs : s' = s) (hd : d' = d)
    (r : Fin 100000) (k : Fin 32) :
    Host.divf (F := Ideal) (φ := .f32)
      (Host.scatterAdd scatter_S100000x32_S1600000x1_S1600000x32_1_0_0_1
        (broadcastInDim S100000x32 ![] bcast_S_S100000x32 (constant (F := Ideal) S_ .f32 0x00000000#32)) d'
        (Host.gather gather_S100000x32_S1600000x1_S1600000x32_1_0_n_n_0_1_132 (extractStridedSlice S100000x32 ![0, 32] z slices_S100000x64_S100000x32_0_32) s'))
      (broadcastInDim S100000x32 ![0, 1] bcast_S100000x1_S100000x32_0_1
        (broadcastInDim S100000x1 ![0] bcast_S100000_S100000x1_0
          (maximumf
            (Host.scatterAdd scatter_S100000_S1600000x1_S1600000_n_0_0_1
              (broadcastInDim S100000 ![] bcast_S_S100000 (constant (F := Ideal) S_ .f32 0x00000000#32)) d'
              (broadcastInDim S1600000 ![] bcast_S_S1600000 (constant (F := Ideal) S_ .f32 0x3F800000#32)))
            (broadcastInDim S100000 ![] bcast_S_S100000 (constant (F := Ideal) S_ .f32 0x3F800000#32)))))
      (ix2 r k)
      = mean (edgeSum s d z r (hi k)) (inDeg d r) := by
  rw [mean_piece_apply _ s d s' d' hs hd, edgeSum_hi]

/-! ## One half of layer 2 -/
/-- One half of layer 2 as the reference spells it, read at (r, j): the product of the three pieces side by side with
    the 96 × 32 weight is the sum of the three 32-term contractions, and the bias row is added. -/
theorem half2_apply (M1 M2 C : S100000x32.Idx → EReal) (W : S96x32.Idx → EReal) (B : S32.Idx → EReal)
    (r : Fin 100000) (j : Fin 32) :
    addf (F := Ideal) (φ := .f32)
      (Host.dotGeneral (F := Ideal) (φ₁ := .f32) (φ₂ := .f32) dot_S100000x96_S96x32_S100000x32_1_0_0_1_n_n none
        (concatenate S100000x96 1 [⟨S100000x32, M1⟩, ⟨S100000x32, M2⟩, ⟨S100000x32, C⟩]
          concatenates_S100000x32_S100000x32_S100000x32_S100000x96_d1) W)
      (broadcastInDim S100000x32 ![0, 1] bcast_S1x32_S100000x32_0_1 (broadcastInDim S1x32 ![1] bcast_S32_S1x32_1 B))
      (ix2 r j)
    = ((∑ k : Fin 32, M1 (ix2 r k) * W (ix2 (⟨k.val, by omega⟩ : Fin 96) j)
        + ∑ k : Fin 32, M2 (ix2 r k) * W (ix2 (⟨32 + k.val, by omega⟩ : Fin 96) j))
        + ∑ k : Fin 32, C (ix2 r k) * W (ix2 (⟨64 + k.val, by omega⟩ : Fin 96) j)) + B (ix1 j) := by
  rw [addf_apply,
    host_dot_ix2 (A := 100000) (K := 96) (B := 32) dot_S100000x96_S96x32_S100000x32_1_0_0_1_n_n_wf
      dot_S100000x96_S96x32_S100000x32_1_0_0_1_n_n rfl none _ W r j,
    bias_apply, sum_split_96]
  simp only [cat3_0, cat3_1, cat3_2]

/-- One half of layer 2, the reference's spelling against the specification's: the three pieces are the two means and
    the node's own columns. -/
theorem half2_eq (SP SN Z : Fin 100000 → Fin 64 → EReal) (cP cN : Fin 100000 → EReal) (ca cb cz : Fin 32 → Fin 64)
    (M1 M2 C : S100000x32.Idx → EReal) (W : S96x32.Idx → EReal) (B : S32.Idx → EReal) (r : Fin 100000) (j : Fin 32)
    (h1 : ∀ k, M1 (ix2 r k) = mean (SP r (ca k)) (cP r)) (h2 : ∀ k, M2 (ix2 r k) = mean (SN r (cb k)) (cN r))
    (h3 : ∀ k, C (ix2 r k) = Z r (cz k)) :
    addf (F := Ideal) (φ := .f32)
      (Host.dotGeneral (F := Ideal) (φ₁ := .f32) (φ₂ := .f32) dot_S100000x96_S96x32_S100000x32_1_0_0_1_n_n none
        (concatenate S100000x96 1 [⟨S100000x32, M1⟩, ⟨S100000x32, M2⟩, ⟨S100000x32, C⟩]
          concatenates_S100000x32_S100000x32_S100000x32_S100000x96_d1) W)
      (broadcastInDim S100000x32 ![0, 1] bcast_S1x32_S100000x32_0_1 (broadcastInDim S1x32 ![1] bcast_S32_S1x32_1 B))
      (ix2 r j)
    = half2 SP SN Z cP cN ca cb cz W B r j := by
  rw [half2_apply]
  unfold half2
  simp only [h1, h2, h3]

/-! ## The two halves side by side under tanh -/

/-- The specification's output array read at (r, q). -/
theorem output_apply (z : (⟨2, ![100000, 64]⟩ : Shape).Idx → EReal) (sP dP sN dN : IVec ⟨2, ![1600000, 1]⟩ 32)
    (W2b : (⟨2, ![96, 32]⟩ : Shape).Idx → EReal) (B2b : (⟨1, ![32]⟩ : Shape).Idx → EReal)
    (W2u : (⟨2, ![96, 32]⟩ : Shape).Idx → EReal) (B2u : (⟨1, ![32]⟩ : Shape).Idx → EReal)
    (r : Fin 100000) (q : Fin 64) :
    output z sP dP sN dN W2b B2b W2u B2u (ix2 r q)
      = layer2 (edgeSum sP dP z) (edgeSum sN dN z) (fun r k => z (ix2 r k)) (inDeg dP) (inDeg dN)
          W2b B2b W2u B2u r q := rfl

/-! ## Layer 2 of the reference -/

/-- The reference's output array is the specification's, over the hidden array and the two edge lists' source and
    target columns. The hidden array stays a variable throughout. -/
theorem output_eq (V0 : Valuation τ sig (Elt Ideal)) :
    Host.tanh (F := Ideal) (φ := .f32) (res_main_v162 (F := Ideal) V0)
      = Cert.Sgcn.output (res_main_v57 (F := Ideal) V0)
          (srcCol (V0 (Proc.devRef .tc main_arg1))) (dstCol (V0 (Proc.devRef .tc main_arg1)))
          (srcCol (V0 (Proc.devRef .tc main_arg2))) (dstCol (V0 (Proc.devRef .tc main_arg2)))
          (V0 (Proc.devRef .tc main_arg7)) (V0 (Proc.devRef .tc main_arg8))
          (V0 (Proc.devRef .tc main_arg9)) (V0 (Proc.devRef .tc main_arg10)) := by
  funext i
  obtain ⟨r, q, rfl⟩ : ∃ (r : Fin 100000) (q : Fin 64), i = ix2 r q := ⟨i 0, i 1, eq_ix2 i⟩
  rw [output_apply]
  unfold res_main_v162 res_main_v58 res_main_v59
  generalize res_main_v57 (F := Ideal) V0 = z
  rw [tanh_cat_apply]
  unfold layer2
  by_cases h : q.val < 32
  · rw [dif_pos h, dif_pos h]
    refine congrArg Ideal.tanh (half2_eq _ _ _ _ _ lo hi lo _ _ _ _ _ r ⟨q.val, h⟩ (fun k => ?_) (fun k => ?_) (fun k => ?_))
    · exact mean_lo_apply z (srcCol (V0 (Proc.devRef .tc main_arg1))) (dstCol (V0 (Proc.devRef .tc main_arg1))) _ _ rfl rfl r k
    · exact mean_hi_apply z (srcCol (V0 (Proc.devRef .tc main_arg2))) (dstCol (V0 (Proc.devRef .tc main_arg2))) _ _ rfl rfl r k
    · exact slice_lo_apply z r k
  · rw [dif_neg h, dif_neg h]
    refine congrArg Ideal.tanh (half2_eq _ _ _ _ _ hi lo hi _ _ _ _ _ r ⟨q.val - 32, by omega⟩
      (fun k => ?_) (fun k => ?_) (fun k => ?_))
    · exact mean_hi_apply z (srcCol (V0 (Proc.devRef .tc main_arg1))) (dstCol (V0 (Proc.devRef .tc main_arg1))) _ _ rfl rfl r k
    · exact mean_lo_apply z (srcCol (V0 (Proc.devRef .tc main_arg2))) (dstCol (V0 (Proc.devRef .tc main_arg2))) _ _ rfl rfl r k
    · exact slice_hi_apply z r k

end Cert.Sgcn.Ref

end
-- ==== Proof.lean ====
/-
  A signed graph convolution in two layers — for every node the mean of its neighbours' rows over the positive and over
  the negative edges, joined to the node's own row, through a linear map and `tanh`, twice — computed two ways:

  * the kernel program sums rows over the edges on the host, multiplies by the reciprocal of the clamped number of
    incoming edges inside two tiled kernels (25 blocks of 4000 nodes each), and writes each linear map over the joined
    row as a sum of products with the row blocks of the weight matrix;
  * the reference divides the edge sums by the clamped count, joins the pieces into one row and takes one product,
    and in the second layer sums the two 32-column halves of the hidden rows over the edges separately.

  Over the extended reals the two agree index by index, with no use of the inputs' finiteness: a product with
  `1 / y` is the quotient by `y` when `y ≠ 0` (here `y ≥ 1`); a contraction over a joined axis is the sum of the
  contractions over its pieces (commutativity and associativity of `+` only); a column of an edge sum of a table is the
  edge sum of that column; a change of float format is the identity and both programs' `tanh` are one function.

  Both sides are proved equal to one specification (`Cert.Sgcn.output … (Cert.Sgcn.hidden …)`, Proof/Spec.lean): the
  reference by reading its operations at an index (Proof/RefHidden.lean, RefOutput.lean), the kernel program by reading
  the fold of its four segments (Proof/KRun.lean, KerValue.lean), each kernel's blocks (Proof/Region0.lean,
  Region1.lean), the kernel bodies (Proof/Bodies.lean) and the host's edge sums (Proof/EdgeRead.lean, KerSpec.lean).
  The ideal pass rewrote no operation, so the idealization claim is `True`.
-/
import proofs.«112820_j33543694581992_2_alg».proof.Defs
import proofs.«112820_j33543694581992_2_alg».proof.Proof.Gen.Kernel
import proofs.«112820_j33543694581992_2_alg».proof.Proof.Gen.Kernel.Frame
import proofs.«112820_j33543694581992_2_alg».proof.Proof.Gen.KernelIdeal
import proofs.«112820_j33543694581992_2_alg».proof.Proof.Gen.KernelIdeal.Frame
import proofs.«112820_j33543694581992_2_alg».proof.Proof.Gen.ReferenceIdeal
import proofs.«112820_j33543694581992_2_alg».proof.Proof.Gen.ReferenceIdeal.Run
import proofs.«112820_j33543694581992_2_alg».proof.Proof.Gen.Pre_finite_inputs
import proofs.«112820_j33543694581992_2_alg».proof.Proof.KerValue
import proofs.«112820_j33543694581992_2_alg».proof.Proof.KerSpec
import proofs.«112820_j33543694581992_2_alg».proof.Proof.RefHidden
import proofs.«112820_j33543694581992_2_alg».proof.Proof.RefOutput
import Idealize.ShloMosaic.Adequacy
import Idealize.ShloMosaic.Init

set_option maxRecDepth 16384

noncomputable section

namespace Cert.Proof

open Idealize.ShloMosaic Idealize.SL.Sem

/-! ## The three programs run, and leave their arguments alone -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-! ## The two results are one function of the arguments -/

/-- The two programs spell an edge list's source column, and its target column, by the same integer operations. -/
theorem srcCol_eq (e : IVec ⟨2, ![2, 1600000]⟩ 32) : Cert.Sgcn.Ref.srcCol e = Cert.Sgcn.Ker.srcCol e := rfl
theorem dstCol_eq (e : IVec ⟨2, ![2, 1600000]⟩ 32) : Cert.Sgcn.Ref.dstCol e = Cert.Sgcn.Ker.dstCol e := rfl

/-- From memories that agree on the eleven arguments, the reference's result term is the kernel program's: both are
    the specification's second layer of its first layer of those arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Host.tanh (F := Ideal) (φ := .f32) (Cert.ReferenceIdeal.Value.res_main_v162 (F := Ideal) (StableHlo.launchContents m' c))
      = Cert.Sgcn.Ker.kerOut m c := by
  obtain ⟨h0, h1, h2, h3, h4, h5, h6, h7, h8, h9, h10⟩ := hagree
  rw [Cert.Sgcn.Ref.output_eq, Cert.Sgcn.Ref.hidden_eq]
  -- the reference's launch arrays are the kernel program's
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  have e4 : StableHlo.launchContents m' c (Proc.devRef .tc Cert.ReferenceIdeal.main_arg4) = m ((c.tc : Thread Cert.KernelIdeal.nD Cert.KernelIdeal.τ).loc Cert.KernelIdeal.main_arg4) := h4
  have e5 : StableHlo.launchContents m' c (Proc.devRef .tc Cert.ReferenceIdeal.main_arg5) = m ((c.tc : Thread Cert.KernelIdeal.nD Cert.KernelIdeal.τ).loc Cert.KernelIdeal.main_arg5) := h5
  have e6 : StableHlo.launchContents m' c (Proc.devRef .tc Cert.ReferenceIdeal.main_arg6) = m ((c.tc : Thread Cert.KernelIdeal.nD Cert.KernelIdeal.τ).loc Cert.KernelIdeal.main_arg6) := h6
  have e7 : StableHlo.launchContents m' c (Proc.devRef .tc Cert.ReferenceIdeal.main_arg7) = m ((c.tc : Thread Cert.KernelIdeal.nD Cert.KernelIdeal.τ).loc Cert.KernelIdeal.main_arg7) := h7
  have e8 : StableHlo.launchContents m' c (Proc.devRef .tc Cert.ReferenceIdeal.main_arg8) = m ((c.tc : Thread Cert.KernelIdeal.nD Cert.KernelIdeal.τ).loc Cert.KernelIdeal.main_arg8) := h8
  have e9 : StableHlo.launchContents m' c (Proc.devRef .tc Cert.ReferenceIdeal.main_arg9) = m ((c.tc : Thread Cert.KernelIdeal.nD Cert.KernelIdeal.τ).loc Cert.KernelIdeal.main_arg9) := h9
  have e10 : StableHlo.launchContents m' c (Proc.devRef .tc Cert.ReferenceIdeal.main_arg10) = m ((c.tc : Thread Cert.KernelIdeal.nD Cert.KernelIdeal.τ).loc Cert.KernelIdeal.main_arg10) := h10
  rw [e0, e1, e2, e3, e4, e5, e6, e7, e8, e9, e10]
  unfold Cert.Sgcn.Ker.kerOut Cert.Sgcn.Ker.kerHidden
  rw [Cert.Sgcn.Ker.layer1_eq, Cert.Sgcn.Ker.layer2_eq, srcCol_eq, dstCol_eq, srcCol_eq, dstCol_eq]

/-- Both idealized programs run, and end with the same result array. -/
theorem algebraic : Cert.algebraic_KernelIdeal_ReferenceIdeal := by
  intro m ρ m' ρ' _ hagree
  refine ⟨fun c => Cert.Sgcn.Ker.kerOut m c, ?_, ?_⟩
  · exact (θ_run Cert.KernelIdeal.defs _ _).mono
      (fun _ h c => ⟨(h c).1.trans (Cert.Sgcn.Ker.value m ρ c), (h c).2⟩) (Cert.Sgcn.Ker.run_named (F := Ideal) m ρ)
  · exact (θ_run Cert.ReferenceIdeal.defs _ _).mono
      (fun _ h c => ⟨(h c).1.trans (result_eq m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
